-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256x32x128 : Shape := ⟨3, ![256, 32, 128]⟩
abbrev S256x32 : Shape := ⟨2, ![256, 32]⟩
abbrev S256x32x1 : Shape := ⟨3, ![256, 32, 1]⟩
abbrev S128x4096 : Shape := ⟨2, ![128, 4096]⟩
abbrev S128x32x128 : Shape := ⟨3, ![128, 32, 128]⟩
abbrev S128x32 : Shape := ⟨2, ![128, 32]⟩
abbrev S32 : Shape := ⟨1, ![32]⟩
abbrev S1x32 : Shape := ⟨2, ![1, 32]⟩
abbrev S1x32x1 : Shape := ⟨3, ![1, 32, 1]⟩
abbrev S1024x1024 : Shape := ⟨2, ![1024, 1024]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .bf16⟩
  | .hbm, ⟨6, _⟩ => ⟨S4096x4096, .bf16⟩
  | .hbm, ⟨7, _⟩ => ⟨S8192x4096, .f32⟩
  | .hbm, ⟨8, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S128x4096, .f32⟩
  | .local _ .vmem, ⟨5, _⟩ => ⟨S128x4096, .f32⟩
  | .local _ .vmem, ⟨6, _⟩ => ⟨S128x4096, .bf16⟩
  | .local _ .vmem, ⟨7, _⟩ => ⟨S128x4096, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![8, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S4x2048x4096_S8192x4096 : S4x2048x4096.ShapeCasts S8192x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S256x4096_S256x32x128 : S256x4096.ShapeCasts S256x32x128
  reduces_S256x32x128_S256x32 : S256x32x128.Reduces [2] S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x32x128 : S128x4096.ShapeCasts S128x32x128
  reduces_S128x32x128_S128x32 : S128x32x128.Reduces [2] S128x32
  reduces_S128x32_S32 : S128x32.Reduces [0] S32
  shapeCasts_S32_S1x32 : S32.ShapeCasts S1x32
  shapeCasts_S1x32_S1x32x1 : S1x32.ShapeCasts S1x32x1
  shapeCasts_S1x32x1_S1x32x1 : S1x32x1.ShapeCasts S1x32x1
  broadcasts_S1x32x1_S128x32x128 : S1x32x1.Broadcasts S128x32x128
  shapeCasts_S128x32x128_S128x4096 : S128x32x128.ShapeCasts S128x4096
  packedbf16_S128x4096_S128x4096_0_0 : (Rect.unit (s := S128x4096) ![0, 0] S128x4096.size inb_S128x4096_S128x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .bf16 = 32 ∨ (Rect.block (s := S8192x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .f32 = 32 ∨ (Rect.block (s := S4096x4096) S128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S4096x4096.size a
  hwx1_1 : ∀ i : grid1.Coords, EltTy.bits .bf16 = 32 ∨ (Rect.block (s := S4096x4096) S128x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x4096.size a
  hwx2_0 : ∀ i : grid2.Coords, EltTy.bits .bf16 = 32 ∨ (Rect.block (s := S8192x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x4096.size a
  hwx2_3 : ∀ i : grid2.Coords, EltTy.bits .f32 = 32 ∨ (Rect.block (s := S8192x4096) S1024x1024.size (cc2_transform_3 i) (hinb2_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S32x128x32x128 : Shape := ⟨4, ![32, 128, 32, 128]⟩
abbrev S32x32 : Shape := ⟨2, ![32, 32]⟩
abbrev S32x1x32x1 : Shape := ⟨4, ![32, 1, 32, 1]⟩
abbrev S1x4096 : Shape := ⟨2, ![1, 4096]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x32x128, .f32⟩
  | .hbm, ⟨5, _⟩ => ⟨S8192x32x128, .f32⟩
  | .hbm, ⟨6, _⟩ => ⟨S_, .f32⟩
  | .hbm, ⟨7, _⟩ => ⟨S8192x32, .f32⟩
  | .hbm, ⟨8, _⟩ => ⟨S_, .f32⟩
  | .hbm, ⟨9, _⟩ => ⟨S8192x32, .f32⟩
  | .hbm, ⟨10, _⟩ => ⟨S8192x32, .f32⟩
  | .hbm, ⟨11, _⟩ => ⟨S_, .f32⟩
  | .hbm, ⟨12, _⟩ => ⟨S8192x32, .f32⟩
  | .hbm, ⟨13, _⟩ => ⟨S8192x32, .f32⟩
  | .hbm, ⟨14, _⟩ => ⟨S8192x32x1, .f32⟩
  | .hbm, ⟨15, _⟩ => ⟨S8192x32x128, .f32⟩
  | .hbm, ⟨16, _⟩ => ⟨S8192x32x128, .f32⟩
  | .hbm, ⟨17, _⟩ => ⟨S8192x32x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192x32x128, .f32⟩
  | .hbm, ⟨22, _⟩ => ⟨S8192x32x128, .f32⟩
  | .hbm, ⟨23, _⟩ => ⟨S_, .f32⟩
  | .hbm, ⟨24, _⟩ => ⟨S8192x32x128, .f32⟩
  | .hbm, ⟨25, _⟩ => ⟨S8192x32x128, .f32⟩
  | .hbm, ⟨26, _⟩ => ⟨S32x128x32x128, .f32⟩
  | .hbm, ⟨27, _⟩ => ⟨S32x128x32x128, .f32⟩
  | .hbm, ⟨28, _⟩ => ⟨S_, .f32⟩
  | .hbm, ⟨29, _⟩ => ⟨S32x32, .f32⟩
  | .hbm, ⟨30, _⟩ => ⟨S_, .f32⟩
  | .hbm, ⟨31, _⟩ => ⟨S32x32, .f32⟩
  | .hbm, ⟨32, _⟩ => ⟨S32x32, .f32⟩
  | .hbm, ⟨33, _⟩ => ⟨S_, .f32⟩
  | .hbm, ⟨34, _⟩ => ⟨S32x32, .f32⟩
  | .hbm, ⟨35, _⟩ => ⟨S32x32, .f32⟩
  | .hbm, ⟨36, _⟩ => ⟨S32x1x32x1, .f32⟩
  | .hbm, ⟨37, _⟩ => ⟨S32x128x32x128, .f32⟩
  | .hbm, ⟨38, _⟩ => ⟨S32x128x32x128, .f32⟩
  | .hbm, ⟨39, _⟩ => ⟨S32x128x32x128, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S32x128x32x128, .f32⟩
  | .hbm, ⟨44, _⟩ => ⟨S32x128x32x128, .f32⟩
  | .hbm, ⟨45, _⟩ => ⟨S_, .f32⟩
  | .hbm, ⟨46, _⟩ => ⟨S32x128x32x128, .f32⟩
  | .hbm, ⟨47, _⟩ => ⟨S32x128x32x128, .f32⟩
  | .hbm, ⟨48, _⟩ => ⟨S4096x4096, .f32⟩
  | .hbm, ⟨49, _⟩ => ⟨S8192x32x1, .f32⟩
  | .hbm, ⟨50, _⟩ => ⟨S8192x32x128, .f32⟩
  | .hbm, ⟨51, _⟩ => ⟨S8192x32x128, .f32⟩
  | .hbm, ⟨52, _⟩ => ⟨S8192x4096, .f32⟩
  | .hbm, ⟨53, _⟩ => ⟨S32x128x32x128, .f32⟩
  | .hbm, ⟨54, _⟩ => ⟨S32x1x32x1, .f32⟩
  | .hbm, ⟨55, _⟩ => ⟨S32x128x32x128, .f32⟩
  | .hbm, ⟨56, _⟩ => ⟨S32x128x32x128, .f32⟩
  | .hbm, ⟨57, _⟩ => ⟨S4096x4096, .f32⟩
  | .hbm, ⟨58, _⟩ => ⟨S4096x4096, .f32⟩
  | .hbm, ⟨59, _⟩ => ⟨S8192x4096, .f32⟩
  | .hbm, ⟨60, _⟩ => ⟨S1x4096, .f32⟩
  | .hbm, ⟨61, _⟩ => ⟨S8192x4096, .f32⟩
  | .hbm, ⟨62, _⟩ => ⟨S8192x4096, .f32⟩
  | .hbm, ⟨63, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_cst_8 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]

class Facts₀ : Prop where
  shapeCasts_S4x2048x4096_S8192x4096 : S4x2048x4096.ShapeCasts S8192x4096
  shapeCasts_S8192x4096_S8192x32x128 : S8192x4096.ShapeCasts S8192x32x128
  reducesTo_S8192x32x128_S8192x32_d2 : S8192x32x128.ReducesTo [2] S8192x32
  h_S_ : 0 < S_.numel
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S4096x4096_S32x128x32x128 : S4096x4096.ShapeCasts S32x128x32x128
  reducesTo_S32x128x32x128_S32x32_d1_3 : S32x128x32x128.ReducesTo [1, 3] S32x32
  bcast_S_S32x32 : S_.BroadcastsInDim S32x32 (![] : Fin 0 → Fin S32x32.rank)
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  bcast_S_S32x128x32x128 : S_.BroadcastsInDim S32x128x32x128 (![] : Fin 0 → Fin S32x128x32x128.rank)
  shapeCasts_S32x128x32x128_S4096x4096 : S32x128x32x128.ShapeCasts S4096x4096
  shapeCasts_S8192x32x128_S8192x4096 : S8192x32x128.ShapeCasts S8192x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.FrameK01.lean ====
/-
  The two quantize regions of the program, each as a pipeline whose body is run once per grid point: the body loads
  its input block whole, computes, and stores its output block whole, so after the body the output's staging buffer
  holds the body's arithmetic of the input block, and the input's is unchanged.  Everything is stated at the
  contents `V` the region is entered with, for any float instance.
-/
import proofs.«134332_j23905787969796_2_alg».proof.Proof.Gen.Kernel.Launch
import proofs.«134332_j23905787969796_2_alg».proof.Proof.Gen.Kernel.Skeleton
import proofs.«134332_j23905787969796_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0: the activation's quantize-dequantize pass (blocks of 256 rows), at the contents `V` the region is entered with -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body loads and stores through: the whole block. -/
abbrev r0_0 : Rect S256x4096 := Rect.unit (s := S256x4096) ![0, 0] S256x4096.size inb_S256x4096_S256x4096_0_0

/-- What the body leaves in the output window's staging buffer: its one store, whose value is the body's
    arithmetic of the input block. -/
def out0_1 (x0 : Vec F S256x4096 .f32) : Vec F S256x4096 .bf16 :=
  View.canon [⟨r0_0, k0_pay1 (View.ld x0 r0_0)⟩]

/-- The store covers the buffer. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

set_option maxHeartbeats 1000000 in
/-- The body on whole staging buffers, the input's at contents `x0` and the output's at anything, ends with the
    input's unchanged and the output's at `out0_1 x0`. -/
theorem sound_kernel0 (c : Dev nD) (E : Set ℕ) (i : grid0.Coords) (arg0 : Memref sig .tc .vmem S256x4096 .f32) (harg0 : arg0.IsWhole) (arg1 : Memref sig .tc .vmem S256x4096 .bf16) (harg1 : arg1.IsWhole)
    (x0 : Vec F S256x4096 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__act_quant_kernel i arg0 harg0 arg1 harg1) K := by
  simp only [cc0__act_quant_kernel_eq_skeleton]; unfold cc0__act_quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the region's pipeline on core `c`: the arrays as the region finds them; after the body at point
    `t` the input's buffer at its block and the output's at the body's arithmetic of that block; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

/-! # Region 1: the weight's quantize-dequantize pass (blocks of 128 rows), at the contents `V` the region is entered with -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body loads and stores through: the whole block. -/
abbrev r1_0 : Rect S128x4096 := Rect.unit (s := S128x4096) ![0, 0] S128x4096.size inb_S128x4096_S128x4096_0_0

/-- What the body leaves in the output window's staging buffer: its one store, whose value is the body's
    arithmetic of the input block. -/
def out1_1 (x0 : Vec F S128x4096 .f32) : Vec F S128x4096 .bf16 :=
  View.canon [⟨r1_0, k1_pay1 (View.ld x0 r1_0)⟩]

/-- The store covers the buffer. -/
theorem cover1_1 (p0 : Vec F S128x4096 .bf16) (y : S128x4096.Idx) :
    ∃ pc ∈ ([⟨r1_0, p0⟩] : List (View.Piece (Elt F) S128x4096 .bf16)), y ∈ pc.1.set :=
  View.cover_of_tiled [⟨r1_0, p0⟩] S128x4096.size (by rfl) y

set_option maxHeartbeats 1000000 in
/-- The body on whole staging buffers, the input's at contents `x0` and the output's at anything, ends with the
    input's unchanged and the output's at `out1_1 x0`. -/
theorem sound_kernel1 (c : Dev nD) (E : Set ℕ) (i : grid1.Coords) (arg0 : Memref sig .tc .vmem S128x4096 .f32) (harg0 : arg0.IsWhole) (arg1 : Memref sig .tc .vmem S128x4096 .bf16) (harg1 : arg1.IsWhole)
    (x0 : Vec F S128x4096 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__weight_quant_kernel i arg0 harg0 arg1 harg1) K := by
  simp only [cc1__weight_quant_kernel_eq_skeleton]; unfold cc1__weight_quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of the region's pipeline on core `c`: the arrays as the region finds them; after the body at point
    `t` the input's buffer at its block and the output's at the body's arithmetic of that block; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.FrameK2Defs.lean ====
/-
  The matrix-product region: what its runs share.  The grid is 8 × 4 × 4, the last axis `k` running over the four
  1024-wide slices of the contracted axis; a point's position is `t`, and `k = t mod 4`.  The body resets its
  accumulator (a scratch buffer kept from one point to the next) when `k = 0`, adds the product of the point's two
  blocks to it at every point, and stores accumulator plus bias into the output block when `k = 3` — the only
  points at which the output block is written back.
-/
import proofs.«134332_j23905787969796_2_alg».proof.Proof.Gen.Kernel.Launch
import proofs.«134332_j23905787969796_2_alg».proof.Proof.Gen.Kernel.Skeleton
import proofs.«134332_j23905787969796_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, decided over the grid -/

/-- `k = 0`, as the body computes it from the grid coordinates. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- `k = 3`, as the body computes it. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Where `k ≠ 3` the body stores nothing into the output block and the block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The staging buffers and the accumulator -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2 : Memref sig .tc .vmem S1024x1024 .f32 := Memref.whole cc2_scratch0
abbrev VS2 : View sig .tc .vmem S1024x1024 .f32 := scM2.view
/-- One staging buffer of the output window, through which its contents are stated. -/
abbrev VO2 : View sig .tc .vmem S1024x1024 .f32 := (Memref.whole cc2_stg3_0 : Memref sig .tc .vmem S1024x1024 .f32).view

/-- The other regions' staging buffers, each whole at some contents: they ride along untouched. -/
def others2 (c : Dev nD) : sProp 𝕄 :=
  iprop((∃ d, owns (c : Thread nD τ) (Memref.whole cc0_stg0_0) fullShare d) ∗ (∃ d, owns (c : Thread nD τ) (Memref.whole cc0_stg0_1) fullShare d) ∗ (∃ d, owns (c : Thread nD τ) (Memref.whole cc0_stg1_0) fullShare d) ∗ (∃ d, owns (c : Thread nD τ) (Memref.whole cc0_stg1_1) fullShare d) ∗ (∃ d, owns (c : Thread nD τ) (Memref.whole cc1_stg0_0) fullShare d) ∗ (∃ d, owns (c : Thread nD τ) (Memref.whole cc1_stg0_1) fullShare d) ∗ (∃ d, owns (c : Thread nD τ) (Memref.whole cc1_stg1_0) fullShare d) ∗ (∃ d, owns (c : Thread nD τ) (Memref.whole cc1_stg1_1) fullShare d))

/-- The region's invariant before the first point: the other regions' staging buffers, the accumulator at anything,
    the generator register at some state. -/
theorem PhiA2_eq (c : Dev nD) :
    (Pipeline.ΦA spec2 c : sProp 𝕄)
      = iprop(iprop((∃ d, owns (c : Thread nD τ) (Memref.whole cc0_stg0_0) fullShare d) ∗ (∃ d, owns (c : Thread nD τ) (Memref.whole cc0_stg0_1) fullShare d) ∗ (∃ d, owns (c : Thread nD τ) (Memref.whole cc0_stg1_0) fullShare d) ∗ (∃ d, owns (c : Thread nD τ) (Memref.whole cc0_stg1_1) fullShare d) ∗ (∃ d, owns (c : Thread nD τ) (Memref.whole cc1_stg0_0) fullShare d) ∗ (∃ d, owns (c : Thread nD τ) (Memref.whole cc1_stg0_1) fullShare d) ∗ (∃ d, owns (c : Thread nD τ) (Memref.whole cc1_stg1_0) fullShare d) ∗ (∃ d, owns (c : Thread nD τ) (Memref.whole cc1_stg1_1) fullShare d) ∗ (∃ d, owns (c : Thread nD τ) scM2 fullShare d)) ∗ (∃ r, prngReg c r)) := by
  unfold Pipeline.ΦA; rw [scopedRest2_eq]; simp only [scM2, owns_whole]; try rfl

section Regions
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not (the bias row is
    fetched only when `k = 0`; its block does not move in between). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Regions

end Cert.Kernel.Hand

end
-- ==== Proof.FrameK2RunA.lean ====
/-
  The matrix-product body in the case where the accumulator is reset and the first product added (\`k = 0\`); the output block is left as found: the pieces its stores leave in the accumulator,
  together with the proof that, on whole staging buffers at the given contents, the body runs to the continuation
  holding the inputs as they were and those pieces written.
-/
import proofs.«134332_j23905787969796_2_alg».proof.Proof.Gen.Kernel.Launch
import proofs.«134332_j23905787969796_2_alg».proof.Proof.Gen.Kernel.Skeleton
import proofs.«134332_j23905787969796_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134332_j23905787969796_2_alg».proof.Proof.FrameK2Defs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_kernel i arg3 harg3 arg4 harg4 arg5 harg5 arg6 harg6 arg7 harg7) K } := by
  refine ⟨[], ?_, fun xi3 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.FrameK2RunB.lean ====
/-
  The matrix-product body in the case where a product is added to the accumulator (\`k = 1, 2\`); the output block is left as found: the pieces its stores leave in the accumulator,
  together with the proof that, on whole staging buffers at the given contents, the body runs to the continuation
  holding the inputs as they were and those pieces written.
-/
import proofs.«134332_j23905787969796_2_alg».proof.Proof.Gen.Kernel.Launch
import proofs.«134332_j23905787969796_2_alg».proof.Proof.Gen.Kernel.Skeleton
import proofs.«134332_j23905787969796_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134332_j23905787969796_2_alg».proof.Proof.FrameK2Defs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_kernel i arg3 harg3 arg4 harg4 arg5 harg5 arg6 harg6 arg7 harg7) K } := by
  refine ⟨[], ?_, fun xi3 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.FrameK2RunC.lean ====
/-
  The matrix-product body in the case where the last product is added and accumulator plus bias stored into the output block (\`k = 3\`): the pieces its stores leave in the accumulator and in the output block,
  together with the proof that, on whole staging buffers at the given contents, the body runs to the continuation
  holding the inputs as they were and those pieces written.
-/
import proofs.«134332_j23905787969796_2_alg».proof.Proof.Gen.Kernel.Launch
import proofs.«134332_j23905787969796_2_alg».proof.Proof.Gen.Kernel.Skeleton
import proofs.«134332_j23905787969796_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134332_j23905787969796_2_alg».proof.Proof.FrameK2Defs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_kernel i arg3 harg3 arg4 harg4 arg5 harg5 arg6 harg6 arg7 harg7) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.FrameK2.lean ====
/-
  The matrix-product region as a pipeline: what the accumulator and the output block hold after each grid point, by
  recursion on the point's position; the region's invariant, which carries the accumulator's contents from a point to
  the next; the proof data; and the body obligation, by cases on `k = t mod 4`.
-/
import proofs.«134332_j23905787969796_2_alg».proof.Proof.Gen.Kernel.Launch
import proofs.«134332_j23905787969796_2_alg».proof.Proof.Gen.Kernel.Skeleton
import proofs.«134332_j23905787969796_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134332_j23905787969796_2_alg».proof.Proof.FrameK2RunA
import proofs.«134332_j23905787969796_2_alg».proof.Proof.FrameK2RunB
import proofs.«134332_j23905787969796_2_alg».proof.Proof.FrameK2RunC
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The scoped buffers the region never touches (the other regions' staging buffers), each at some contents. -/
abbrev rest2 (c : Dev nD) : sProp 𝕄 :=
  Pipeline.scopedRestBut (Ix := Unit) (Name := ℕ) (U := UR sig nD τ) (Lvl := ℕ) (Val := Elt F) spec2 c [cc2_scratch0]

/-- Before the first point the region holds the accumulator at anything, the untouched rest, and the generator
    register at some state. -/
theorem PhiA2_split (c : Dev nD) :
    (Pipeline.ΦA spec2 c : sProp 𝕄)
      = iprop(iprop((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [bigSepL_singleton, scM2, owns_whole]; try rfl

section Regions
variable (V : (c : Dev nD) → (b : Ref sig .tc) → Buf (Elt F) ((c : Thread nD τ).loc b))

/-! ## What each case leaves, at a point's own buffers and blocks -/

theorem scover2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i) (x0 : Vec F S1024x1024 .bf16) (x1 : Vec F S1024x1024 .bf16) (x2 : Vec F S1x1024 .f32) (y : S1024x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x1024.size (by sl_kernel_rfl) y
theorem scover2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i) (x0 : Vec F S1024x1024 .bf16) (x1 : Vec F S1024x1024 .bf16) (x2 : Vec F S1x1024 .f32) (xs0 : Vec F S1024x1024 .f32) (y : S1024x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S1024x1024.size (by sl_kernel_rfl) y
theorem scover2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x1024 .bf16) (x1 : Vec F S1024x1024 .bf16) (x2 : Vec F S1x1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x1024.size (by sl_kernel_rfl) y
theorem cover2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x1024 .bf16) (x1 : Vec F S1024x1024 .bf16) (x2 : Vec F S1x1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1024x1024.size (by sl_kernel_rfl) y

/-- The accumulator after a point with `k = 0`. -/
def accA (c : Dev nD) (t : Fin cfg2.N) (h0 : t.val % 4 = 0) : Vec F S1024x1024 .f32 :=
  VS2.read (Elt F) (VS2.writes (Elt F) VS2.junk (kernelRun2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => by have := (hcond2_1 t).mp h; omega) (iblk2 V c 0 t) (iblk2 V c 1 t) (iblk2 V c 2 t)).2.1)
/-- The accumulator after a point with `k = 1, 2`, from what the point before left. -/
def accB (c : Dev nD) (t : Fin cfg2.N) (h0 : ¬t.val % 4 = 0) (h1 : ¬t.val % 4 = 3) (xs0 : Vec F S1024x1024 .f32) : Vec F S1024x1024 .f32 :=
  VS2.read (Elt F) (VS2.writes (Elt F) VS2.junk (kernelRun2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) xs0).2.1)
/-- The accumulator after a point with `k = 3`. -/
def accC (c : Dev nD) (t : Fin cfg2.N) (h0 : ¬t.val % 4 = 0) (h1 : t.val % 4 = 3) (xs0 : Vec F S1024x1024 .f32) : Vec F S1024x1024 .f32 :=
  VS2.read (Elt F) (VS2.writes (Elt F) VS2.junk (kernelRun2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs0).2.1)
/-- The output block after a point with `k = 3`. -/
def outC (c : Dev nD) (t : Fin cfg2.N) (h0 : ¬t.val % 4 = 0) (h1 : t.val % 4 = 3) (xs0 : Vec F S1024x1024 .f32) : Vec F S1024x1024 .f32 :=
  VO2.read (Elt F) (VO2.writes (Elt F) VO2.junk (kernelRun2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs0).1)

/-! ## The accumulation -/

/-- What the accumulator holds after the body at position `n`. -/
def acc2 (c : Dev nD) : (n : ℕ) → n < cfg2.N → Vec F S1024x1024 .f32
  | 0, hn => accA V c ⟨0, hn⟩ (Nat.zero_mod _)
  | n + 1, hn =>
    if h0 : (n + 1) % 4 = 0 then accA V c ⟨n + 1, hn⟩ h0
    else if h1 : (n + 1) % 4 = 3 then accC V c ⟨n + 1, hn⟩ h0 h1 (acc2 c n (Nat.lt_of_succ_lt hn))
    else accB V c ⟨n + 1, hn⟩ h0 h1 (acc2 c n (Nat.lt_of_succ_lt hn))

theorem acc2_A (c : Dev nD) (t : Fin cfg2.N) (h0 : t.val % 4 = 0) : acc2 V c t.val t.isLt = accA V c t h0 := by
  obtain ⟨n, hn⟩ := t
  cases n with
  | zero => rfl
  | succ n => exact dif_pos h0
theorem acc2_B (c : Dev nD) (t : Fin cfg2.N) (h0 : ¬t.val % 4 = 0) (h1 : ¬t.val % 4 = 3) :
    acc2 V c t.val t.isLt = accB V c t h0 h1 (acc2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem acc2_C (c : Dev nD) (t : Fin cfg2.N) (h0 : ¬t.val % 4 = 0) (h1 : t.val % 4 = 3) :
    acc2 V c t.val t.isLt = accC V c t h0 h1 (acc2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output block's staging buffer holds after the body at point `t`: stored when `k = 3`; elsewhere the
    body leaves it alone and the value is never consulted. -/
def outAt2 (c : Dev nD) (t : Fin cfg2.N) : Vec F S1024x1024 .f32 :=
  if h1 : t.val % 4 = 3 then outC V c t (by omega) h1 (acc2 V c (t.val - 1) (Nat.lt_of_le_of_lt (Nat.sub_le _ _) t.isLt))
  else VO2.read (Elt F) VO2.junk
theorem outAt2_C (c : Dev nD) (t : Fin cfg2.N) (h0 : ¬t.val % 4 = 0) (h1 : t.val % 4 = 3) :
    outAt2 V c t = outC V c t h0 h1 (acc2 V c (t.val - 1) (Nat.lt_of_le_of_lt (Nat.sub_le _ _) t.isLt)) := dif_pos h1

/-! ## The invariant -/

/-- Before position `n`: at the first point what the launch hands the region; afterwards the accumulator at what the
    point before left, the untouched rest, and the generator register at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (acc2 V c n hn) ∗ rest2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare (acc2 V c (n - 1) (by omega)) ∗ rest2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]

set_option maxHeartbeats 4800000 in
/-- The body at any point, by cases on `k`: the inputs' buffers hold their blocks; the invariant hands the body the
    accumulator at what the point before left (at anything at the first point) and takes it back at this point's
    contents; where `k ≠ 3` the output block's buffer is handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 128 := lt_of_lt_of_eq t.isLt (show cfg2.N = 128 from N_2)
  by_cases h1 : t.val % 4 = 3
  · have h0 : ¬t.val % 4 = 0 := by omega
    have hz : t.val ≠ 0 := by omega
    rw [show (dat2 V c).leavesExact 3 t = owns (c : Thread nD τ) (ms2_3 t) fullShare ((dat2 V c).after 3 t) from by
      unfold Dat.leavesExact; rw [liveAt2_3 t ((hcond2_1 t).mpr h1)], after2_3, outAt2_C V c t h0 h1]
    rw [acc2_C V c t h0 h1]
    unfold outC accC; (try dsimp only)
    rw [PhiS2_castSucc V c t, PhiS2_pos V c _ _ hz]
    iintro ⟨⟨⟨HS0, Hrest⟩, Hg⟩, Ho, ⟨%d0, H0⟩, ⟨%d1, H1⟩, ⟨%d2, H2⟩, ⟨%d3, H3⟩⟩
    iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_C c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C c _ _ _ _ _ _ _ _ _ _ _ _ _ _ _ _ _)
  · rw [Dat.leavesExact_idle (dat2 V c) 3 t (idleAt2_3 t (fun h => h1 ((hcond2_1 t).mp h))) (noFlush2_3 t (fun h => h1 ((hcond2_1 t).mp h)))]
    by_cases h0 : t.val % 4 = 0
    · rw [acc2_A V c t h0]
      unfold accA; (try dsimp only)
      by_cases hz : t.val = 0
      · rw [PhiS2_castSucc V c t, PhiS2_zero V c _ _ hz, PhiA2_split]
        iintro ⟨⟨⟨HS0, Hrest⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc2_B V c t h0 h1]
      unfold accB; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation of the region's pipeline, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives back what the launch handed over: the accumulator's contents are forgotten. -/
theorem hout2 (c : Dev nD) : (dat2 V c).Φ (Fin.last cfg2.N) ⊢ Pipeline.ΦA spec2 c := by
  have hN : cfg2.N = 128 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_split]
  iintro ⟨⟨HS0, Hrest⟩, Hg⟩
  isplitl [HS0 Hrest]
  · isplitl [HS0]
    · iexists _; iexact HS0
    iexact Hrest
  iexact Hg

end Regions

end Cert.Kernel.Hand

end
-- ==== Proof.RunK.lean ====
/-
  The whole program as five segments — the two reshapes, the three regions, the last reshape — run from the launch
  to the return.  Between two segments every unscoped buffer of a core holds known contents: the launch memory, then
  each host operation's result, then, after a region, what its write-backs leave in its output array.  The run ends
  with every unscoped buffer at the last of these.
-/
import proofs.«134332_j23905787969796_2_alg».proof.Proof.Gen.Kernel.Launch
import proofs.«134332_j23905787969796_2_alg».proof.Proof.Gen.Kernel.Skeleton
import proofs.«134332_j23905787969796_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134332_j23905787969796_2_alg».proof.Proof.Gen.Kernel.Regions
import proofs.«134332_j23905787969796_2_alg».proof.Proof.FrameK01
import proofs.«134332_j23905787969796_2_alg».proof.Proof.FrameK2
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 (m : (ℓ : Loc nD τ sig) → Buf (Elt F) ℓ) (ρ : Dev nD → PrngReg) : Dev nD → Valuation τ sig (Elt F) := fun c b => m (c, b)
/-- After the two reshapes (region 0's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- At region 0's exit: its arrays at what the pipeline leaves (an input as entered, the output at its write-backs
    folded), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- At region 1's exit: its arrays at what the pipeline leaves (an input as entered, the output at its write-backs
    folded), every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- At region 2's exit: its arrays at what the pipeline leaves (an input as entered, the output at its write-backs
    folded), every other buffer as entered. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)

/-- After the last reshape: the contents at the return. -/
abbrev W5 : Dev nD → Valuation τ sig (Elt F) := fun c => StableHlo.after hostOps3 (W4 m ρ c)

/-! ## The proof data family and the thread state -/

abbrev padm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) padm p) c
  | ⟨0, _⟩ => fun c => dat0 (U1 m ρ) c
  | ⟨1, _⟩ => fun c => dat1 (U2 m ρ) c
  | ⟨2, _⟩ => fun c => dat2 (U3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the return contents, the generator register. -/
abbrev Tₙ (c : Dev nD) : sProp 𝕄 := iprop(StableHlo.held (c : Thread nD τ) (Pipeline.ucRefs τ sig) (W5 m ρ c) ∗ ∃ r, prngReg c r)

/-- The state the last reshape leaves is the last thread state beside the core owing nothing. -/
theorem last_state (c : Dev nD) : (iprop(StableHlo.held (c : Thread nD τ) (Pipeline.ucRefs τ sig) (W5 m ρ c) ∗ R c) : sProp 𝕄)
    ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered with every unscoped buffer at `W1`, left with them at `W2`. Its
    arrays are split out of the unscoped buffers and put back at what the write-backs leave; the generator register
    goes into the region's invariant and comes back; nothing is owed. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its
    arrays are split out of the unscoped buffers and put back at what the write-backs leave; the generator register
    goes into the region's invariant and comes back; nothing is owed. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W3`, left with them at `W4`. Its
    arrays are split out of the unscoped buffers and put back at what the write-backs leave; the generator register
    goes into the region's invariant and comes back; nothing is owed. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hI : (iprop(Pipeline.scopedRest spec2 c ∗ ∃ r, prngReg c r) : sProp 𝕄) ⊢ (pdats m ρ 2 c).Φ 0 := hin2 (U3 m ρ) c
    iintro ⟨Hp, -, Hr⟩
    iapply hI
    isplitl [Hr]; · iexact Hr
    iexact Hp
  hout c := by
    rw [Pipeline.ownSems0_none]
    have hO : (pdats m ρ 2 c).Φ (Fin.last _) ⊢ (iprop(Pipeline.scopedRest spec2 c ∗ ∃ r, prngReg c r) : sProp 𝕄) := hout2 (U3 m ρ) c
    iintro H
    ihave H' := hO $$ H
    icases H' with ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev rsegs : List (Pipeline.Seg (pcfgs (F := F)) padm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (rsegs m ρ) := (main_chain c).trans (by chain_rfl)

set_option backward.isDefEq.respectTransparency.types false in
/-- THE RUN: from any memory with zero counters, every weakly fair execution of the program on the TensorCores
    terminates, nothing faulting, and in every final state each unscoped buffer of each core holds the return
    contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) padm (pdats m ρ) () cellOf_inj emb₁ defs₀ 𝒱₀ L lv m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched -/

theorem W1_of (c : Dev nD) (r : Ref sig .tc) (h : r ∉ hostOps0_W) : W1 m ρ c r = W0 m ρ c r :=
  StableHlo.after_of_writes_sub hostOps0 _ hostOps0_writes h
theorem W5_of (c : Dev nD) (r : Ref sig .tc) (h : r ∉ hostOps3_W) : W5 m ρ c r = W4 m ρ c r :=
  StableHlo.after_of_writes_sub hostOps3 _ hostOps3_writes h

/-- No host operation writes the activation argument and no region has it as an array. -/
theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <| (W3_of_ne m ρ c main_arg0 (by decide)).trans <|
    (W2_of_ne m ρ c main_arg0 (by decide)).trans <| (W1_of m ρ c main_arg0 (by decide)).trans rfl
/-- The weight argument is the input array of region 1, which leaves it as entered. -/
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <|
    ((W3_arr m ρ c 0).trans (((dat1 (U2 m ρ) c).arrAt_in 0 rfl _).trans (A_eq1 (U2 m ρ) c 0))).trans <|
    (W2_of_ne m ρ c main_arg1 (by decide)).trans <| (W1_of m ρ c main_arg1 (by decide)).trans rfl
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of_ne m ρ c main_arg2 (by decide)).trans <|
    (W2_of_ne m ρ c main_arg2 (by decide)).trans <| (W1_of m ρ c main_arg2 (by decide)).trans rfl

/-- THE FRAME: the program runs to the end, faults nowhere, and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.Hand

end
-- ==== Proof.FrameKI01.lean ====
/-
  The two quantize regions of the program, each as a pipeline whose body is run once per grid point: the body loads
  its input block whole, computes, and stores its output block whole, so after the body the output's staging buffer
  holds the body's arithmetic of the input block, and the input's is unchanged.  Everything is stated at the
  contents `V` the region is entered with, for any float instance.
-/
import proofs.«134332_j23905787969796_2_alg».proof.Proof.Gen.KernelIdeal.Launch
import proofs.«134332_j23905787969796_2_alg».proof.Proof.Gen.KernelIdeal.Skeleton
import proofs.«134332_j23905787969796_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0: the activation's quantize-dequantize pass (blocks of 256 rows), at the contents `V` the region is entered with -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body loads and stores through: the whole block. -/
abbrev r0_0 : Rect S256x4096 := Rect.unit (s := S256x4096) ![0, 0] S256x4096.size inb_S256x4096_S256x4096_0_0

/-- What the body leaves in the output window's staging buffer: its one store, whose value is the body's
    arithmetic of the input block. -/
def out0_1 (x0 : Vec F S256x4096 .f32) : Vec F S256x4096 .bf16 :=
  View.canon [⟨r0_0, k0_pay1 (View.ld x0 r0_0)⟩]

/-- The store covers the buffer. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

set_option maxHeartbeats 1000000 in
/-- The body on whole staging buffers, the input's at contents `x0` and the output's at anything, ends with the
    input's unchanged and the output's at `out0_1 x0`. -/
theorem sound_kernel0 (c : Dev nD) (E : Set ℕ) (i : grid0.Coords) (arg0 : Memref sig .tc .vmem S256x4096 .f32) (harg0 : arg0.IsWhole) (arg1 : Memref sig .tc .vmem S256x4096 .bf16) (harg1 : arg1.IsWhole)
    (x0 : Vec F S256x4096 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__act_quant_kernel i arg0 harg0 arg1 harg1) K := by
  simp only [cc0__act_quant_kernel_eq_skeleton]; unfold cc0__act_quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the region's pipeline on core `c`: the arrays as the region finds them; after the body at point
    `t` the input's buffer at its block and the output's at the body's arithmetic of that block; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

/-! # Region 1: the weight's quantize-dequantize pass (blocks of 128 rows), at the contents `V` the region is entered with -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body loads and stores through: the whole block. -/
abbrev r1_0 : Rect S128x4096 := Rect.unit (s := S128x4096) ![0, 0] S128x4096.size inb_S128x4096_S128x4096_0_0

/-- What the body leaves in the output window's staging buffer: its one store, whose value is the body's
    arithmetic of the input block. -/
def out1_1 (x0 : Vec F S128x4096 .f32) : Vec F S128x4096 .bf16 :=
  View.canon [⟨r1_0, k1_pay1 (View.ld x0 r1_0)⟩]

/-- The store covers the buffer. -/
theorem cover1_1 (p0 : Vec F S128x4096 .bf16) (y : S128x4096.Idx) :
    ∃ pc ∈ ([⟨r1_0, p0⟩] : List (View.Piece (Elt F) S128x4096 .bf16)), y ∈ pc.1.set :=
  View.cover_of_tiled [⟨r1_0, p0⟩] S128x4096.size (by rfl) y

set_option maxHeartbeats 1000000 in
/-- The body on whole staging buffers, the input's at contents `x0` and the output's at anything, ends with the
    input's unchanged and the output's at `out1_1 x0`. -/
theorem sound_kernel1 (c : Dev nD) (E : Set ℕ) (i : grid1.Coords) (arg0 : Memref sig .tc .vmem S128x4096 .f32) (harg0 : arg0.IsWhole) (arg1 : Memref sig .tc .vmem S128x4096 .bf16) (harg1 : arg1.IsWhole)
    (x0 : Vec F S128x4096 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__weight_quant_kernel i arg0 harg0 arg1 harg1) K := by
  simp only [cc1__weight_quant_kernel_eq_skeleton]; unfold cc1__weight_quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of the region's pipeline on core `c`: the arrays as the region finds them; after the body at point
    `t` the input's buffer at its block and the output's at the body's arithmetic of that block; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.FrameKI2Defs.lean ====
/-
  The matrix-product region: what its runs share.  The grid is 8 × 4 × 4, the last axis `k` running over the four
  1024-wide slices of the contracted axis; a point's position is `t`, and `k = t mod 4`.  The body resets its
  accumulator (a scratch buffer kept from one point to the next) when `k = 0`, adds the product of the point's two
  blocks to it at every point, and stores accumulator plus bias into the output block when `k = 3` — the only
  points at which the output block is written back.
-/
import proofs.«134332_j23905787969796_2_alg».proof.Proof.Gen.KernelIdeal.Launch
import proofs.«134332_j23905787969796_2_alg».proof.Proof.Gen.KernelIdeal.Skeleton
import proofs.«134332_j23905787969796_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, decided over the grid -/

/-- `k = 0`, as the body computes it from the grid coordinates. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- `k = 3`, as the body computes it. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Where `k ≠ 3` the body stores nothing into the output block and the block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The staging buffers and the accumulator -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2 : Memref sig .tc .vmem S1024x1024 .f32 := Memref.whole cc2_scratch0
abbrev VS2 : View sig .tc .vmem S1024x1024 .f32 := scM2.view
/-- One staging buffer of the output window, through which its contents are stated. -/
abbrev VO2 : View sig .tc .vmem S1024x1024 .f32 := (Memref.whole cc2_stg3_0 : Memref sig .tc .vmem S1024x1024 .f32).view

/-- The other regions' staging buffers, each whole at some contents: they ride along untouched. -/
def others2 (c : Dev nD) : sProp 𝕄 :=
  iprop((∃ d, owns (c : Thread nD τ) (Memref.whole cc0_stg0_0) fullShare d) ∗ (∃ d, owns (c : Thread nD τ) (Memref.whole cc0_stg0_1) fullShare d) ∗ (∃ d, owns (c : Thread nD τ) (Memref.whole cc0_stg1_0) fullShare d) ∗ (∃ d, owns (c : Thread nD τ) (Memref.whole cc0_stg1_1) fullShare d) ∗ (∃ d, owns (c : Thread nD τ) (Memref.whole cc1_stg0_0) fullShare d) ∗ (∃ d, owns (c : Thread nD τ) (Memref.whole cc1_stg0_1) fullShare d) ∗ (∃ d, owns (c : Thread nD τ) (Memref.whole cc1_stg1_0) fullShare d) ∗ (∃ d, owns (c : Thread nD τ) (Memref.whole cc1_stg1_1) fullShare d))

/-- The region's invariant before the first point: the other regions' staging buffers, the accumulator at anything,
    the generator register at some state. -/
theorem PhiA2_eq (c : Dev nD) :
    (Pipeline.ΦA spec2 c : sProp 𝕄)
      = iprop(iprop((∃ d, owns (c : Thread nD τ) (Memref.whole cc0_stg0_0) fullShare d) ∗ (∃ d, owns (c : Thread nD τ) (Memref.whole cc0_stg0_1) fullShare d) ∗ (∃ d, owns (c : Thread nD τ) (Memref.whole cc0_stg1_0) fullShare d) ∗ (∃ d, owns (c : Thread nD τ) (Memref.whole cc0_stg1_1) fullShare d) ∗ (∃ d, owns (c : Thread nD τ) (Memref.whole cc1_stg0_0) fullShare d) ∗ (∃ d, owns (c : Thread nD τ) (Memref.whole cc1_stg0_1) fullShare d) ∗ (∃ d, owns (c : Thread nD τ) (Memref.whole cc1_stg1_0) fullShare d) ∗ (∃ d, owns (c : Thread nD τ) (Memref.whole cc1_stg1_1) fullShare d) ∗ (∃ d, owns (c : Thread nD τ) scM2 fullShare d)) ∗ (∃ r, prngReg c r)) := by
  unfold Pipeline.ΦA; rw [scopedRest2_eq]; simp only [scM2, owns_whole]; try rfl

section Regions
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not (the bias row is
    fetched only when `k = 0`; its block does not move in between). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Regions

end Cert.KernelIdeal.Hand

end
-- ==== Proof.FrameKI2RunA.lean ====
/-
  The matrix-product body in the case where the accumulator is reset and the first product added (\`k = 0\`); the output block is left as found: the pieces its stores leave in the accumulator,
  together with the proof that, on whole staging buffers at the given contents, the body runs to the continuation
  holding the inputs as they were and those pieces written.
-/
import proofs.«134332_j23905787969796_2_alg».proof.Proof.Gen.KernelIdeal.Launch
import proofs.«134332_j23905787969796_2_alg».proof.Proof.Gen.KernelIdeal.Skeleton
import proofs.«134332_j23905787969796_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134332_j23905787969796_2_alg».proof.Proof.FrameKI2Defs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_kernel i arg3 harg3 arg4 harg4 arg5 harg5 arg6 harg6 arg7 harg7) K } := by
  refine ⟨[], ?_, fun xi3 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.FrameKI2RunB.lean ====
/-
  The matrix-product body in the case where a product is added to the accumulator (\`k = 1, 2\`); the output block is left as found: the pieces its stores leave in the accumulator,
  together with the proof that, on whole staging buffers at the given contents, the body runs to the continuation
  holding the inputs as they were and those pieces written.
-/
import proofs.«134332_j23905787969796_2_alg».proof.Proof.Gen.KernelIdeal.Launch
import proofs.«134332_j23905787969796_2_alg».proof.Proof.Gen.KernelIdeal.Skeleton
import proofs.«134332_j23905787969796_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134332_j23905787969796_2_alg».proof.Proof.FrameKI2Defs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_kernel i arg3 harg3 arg4 harg4 arg5 harg5 arg6 harg6 arg7 harg7) K } := by
  refine ⟨[], ?_, fun xi3 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.FrameKI2RunC.lean ====
/-
  The matrix-product body in the case where the last product is added and accumulator plus bias stored into the output block (\`k = 3\`): the pieces its stores leave in the accumulator and in the output block,
  together with the proof that, on whole staging buffers at the given contents, the body runs to the continuation
  holding the inputs as they were and those pieces written.
-/
import proofs.«134332_j23905787969796_2_alg».proof.Proof.Gen.KernelIdeal.Launch
import proofs.«134332_j23905787969796_2_alg».proof.Proof.Gen.KernelIdeal.Skeleton
import proofs.«134332_j23905787969796_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134332_j23905787969796_2_alg».proof.Proof.FrameKI2Defs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_kernel i arg3 harg3 arg4 harg4 arg5 harg5 arg6 harg6 arg7 harg7) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.FrameKI2.lean ====
/-
  The matrix-product region as a pipeline: what the accumulator and the output block hold after each grid point, by
  recursion on the point's position; the region's invariant, which carries the accumulator's contents from a point to
  the next; the proof data; and the body obligation, by cases on `k = t mod 4`.
-/
import proofs.«134332_j23905787969796_2_alg».proof.Proof.Gen.KernelIdeal.Launch
import proofs.«134332_j23905787969796_2_alg».proof.Proof.Gen.KernelIdeal.Skeleton
import proofs.«134332_j23905787969796_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134332_j23905787969796_2_alg».proof.Proof.FrameKI2RunA
import proofs.«134332_j23905787969796_2_alg».proof.Proof.FrameKI2RunB
import proofs.«134332_j23905787969796_2_alg».proof.Proof.FrameKI2RunC
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scoped buffers the region never touches (the other regions' staging buffers), each at some contents. -/
abbrev rest2 (c : Dev nD) : sProp 𝕄 :=
  Pipeline.scopedRestBut (Ix := Unit) (Name := ℕ) (U := UR sig nD τ) (Lvl := ℕ) (Val := Elt F) spec2 c [cc2_scratch0]

/-- Before the first point the region holds the accumulator at anything, the untouched rest, and the generator
    register at some state. -/
theorem PhiA2_split (c : Dev nD) :
    (Pipeline.ΦA spec2 c : sProp 𝕄)
      = iprop(iprop((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [bigSepL_singleton, scM2, owns_whole]; try rfl

section Regions
variable (V : (c : Dev nD) → (b : Ref sig .tc) → Buf (Elt F) ((c : Thread nD τ).loc b))

/-! ## What each case leaves, at a point's own buffers and blocks -/

theorem scover2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i) (x0 : Vec F S1024x1024 .bf16) (x1 : Vec F S1024x1024 .bf16) (x2 : Vec F S1x1024 .f32) (y : S1024x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x1024.size (by sl_kernel_rfl) y
theorem scover2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i) (x0 : Vec F S1024x1024 .bf16) (x1 : Vec F S1024x1024 .bf16) (x2 : Vec F S1x1024 .f32) (xs0 : Vec F S1024x1024 .f32) (y : S1024x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S1024x1024.size (by sl_kernel_rfl) y
theorem scover2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x1024 .bf16) (x1 : Vec F S1024x1024 .bf16) (x2 : Vec F S1x1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x1024.size (by sl_kernel_rfl) y
theorem cover2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x1024 .bf16) (x1 : Vec F S1024x1024 .bf16) (x2 : Vec F S1x1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1024x1024.size (by sl_kernel_rfl) y

/-- The accumulator after a point with `k = 0`. -/
def accA (c : Dev nD) (t : Fin cfg2.N) (h0 : t.val % 4 = 0) : Vec F S1024x1024 .f32 :=
  VS2.read (Elt F) (VS2.writes (Elt F) VS2.junk (kernelRun2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => by have := (hcond2_1 t).mp h; omega) (iblk2 V c 0 t) (iblk2 V c 1 t) (iblk2 V c 2 t)).2.1)
/-- The accumulator after a point with `k = 1, 2`, from what the point before left. -/
def accB (c : Dev nD) (t : Fin cfg2.N) (h0 : ¬t.val % 4 = 0) (h1 : ¬t.val % 4 = 3) (xs0 : Vec F S1024x1024 .f32) : Vec F S1024x1024 .f32 :=
  VS2.read (Elt F) (VS2.writes (Elt F) VS2.junk (kernelRun2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) xs0).2.1)
/-- The accumulator after a point with `k = 3`. -/
def accC (c : Dev nD) (t : Fin cfg2.N) (h0 : ¬t.val % 4 = 0) (h1 : t.val % 4 = 3) (xs0 : Vec F S1024x1024 .f32) : Vec F S1024x1024 .f32 :=
  VS2.read (Elt F) (VS2.writes (Elt F) VS2.junk (kernelRun2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs0).2.1)
/-- The output block after a point with `k = 3`. -/
def outC (c : Dev nD) (t : Fin cfg2.N) (h0 : ¬t.val % 4 = 0) (h1 : t.val % 4 = 3) (xs0 : Vec F S1024x1024 .f32) : Vec F S1024x1024 .f32 :=
  VO2.read (Elt F) (VO2.writes (Elt F) VO2.junk (kernelRun2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs0).1)

/-! ## The accumulation -/

/-- What the accumulator holds after the body at position `n`. -/
def acc2 (c : Dev nD) : (n : ℕ) → n < cfg2.N → Vec F S1024x1024 .f32
  | 0, hn => accA V c ⟨0, hn⟩ (Nat.zero_mod _)
  | n + 1, hn =>
    if h0 : (n + 1) % 4 = 0 then accA V c ⟨n + 1, hn⟩ h0
    else if h1 : (n + 1) % 4 = 3 then accC V c ⟨n + 1, hn⟩ h0 h1 (acc2 c n (Nat.lt_of_succ_lt hn))
    else accB V c ⟨n + 1, hn⟩ h0 h1 (acc2 c n (Nat.lt_of_succ_lt hn))

theorem acc2_A (c : Dev nD) (t : Fin cfg2.N) (h0 : t.val % 4 = 0) : acc2 V c t.val t.isLt = accA V c t h0 := by
  obtain ⟨n, hn⟩ := t
  cases n with
  | zero => rfl
  | succ n => exact dif_pos h0
theorem acc2_B (c : Dev nD) (t : Fin cfg2.N) (h0 : ¬t.val % 4 = 0) (h1 : ¬t.val % 4 = 3) :
    acc2 V c t.val t.isLt = accB V c t h0 h1 (acc2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem acc2_C (c : Dev nD) (t : Fin cfg2.N) (h0 : ¬t.val % 4 = 0) (h1 : t.val % 4 = 3) :
    acc2 V c t.val t.isLt = accC V c t h0 h1 (acc2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output block's staging buffer holds after the body at point `t`: stored when `k = 3`; elsewhere the
    body leaves it alone and the value is never consulted. -/
def outAt2 (c : Dev nD) (t : Fin cfg2.N) : Vec F S1024x1024 .f32 :=
  if h1 : t.val % 4 = 3 then outC V c t (by omega) h1 (acc2 V c (t.val - 1) (Nat.lt_of_le_of_lt (Nat.sub_le _ _) t.isLt))
  else VO2.read (Elt F) VO2.junk
theorem outAt2_C (c : Dev nD) (t : Fin cfg2.N) (h0 : ¬t.val % 4 = 0) (h1 : t.val % 4 = 3) :
    outAt2 V c t = outC V c t h0 h1 (acc2 V c (t.val - 1) (Nat.lt_of_le_of_lt (Nat.sub_le _ _) t.isLt)) := dif_pos h1

/-! ## The invariant -/

/-- Before position `n`: at the first point what the launch hands the region; afterwards the accumulator at what the
    point before left, the untouched rest, and the generator register at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (acc2 V c n hn) ∗ rest2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare (acc2 V c (n - 1) (by omega)) ∗ rest2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]

set_option maxHeartbeats 4800000 in
/-- The body at any point, by cases on `k`: the inputs' buffers hold their blocks; the invariant hands the body the
    accumulator at what the point before left (at anything at the first point) and takes it back at this point's
    contents; where `k ≠ 3` the output block's buffer is handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 128 := lt_of_lt_of_eq t.isLt (show cfg2.N = 128 from N_2)
  by_cases h1 : t.val % 4 = 3
  · have h0 : ¬t.val % 4 = 0 := by omega
    have hz : t.val ≠ 0 := by omega
    rw [show (dat2 V c).leavesExact 3 t = owns (c : Thread nD τ) (ms2_3 t) fullShare ((dat2 V c).after 3 t) from by
      unfold Dat.leavesExact; rw [liveAt2_3 t ((hcond2_1 t).mpr h1)], after2_3, outAt2_C V c t h0 h1]
    rw [acc2_C V c t h0 h1]
    unfold outC accC; (try dsimp only)
    rw [PhiS2_castSucc V c t, PhiS2_pos V c _ _ hz]
    iintro ⟨⟨⟨HS0, Hrest⟩, Hg⟩, Ho, ⟨%d0, H0⟩, ⟨%d1, H1⟩, ⟨%d2, H2⟩, ⟨%d3, H3⟩⟩
    iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_C c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C c _ _ _ _ _ _ _ _ _ _ _ _ _ _ _ _ _)
  · rw [Dat.leavesExact_idle (dat2 V c) 3 t (idleAt2_3 t (fun h => h1 ((hcond2_1 t).mp h))) (noFlush2_3 t (fun h => h1 ((hcond2_1 t).mp h)))]
    by_cases h0 : t.val % 4 = 0
    · rw [acc2_A V c t h0]
      unfold accA; (try dsimp only)
      by_cases hz : t.val = 0
      · rw [PhiS2_castSucc V c t, PhiS2_zero V c _ _ hz, PhiA2_split]
        iintro ⟨⟨⟨HS0, Hrest⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc2_B V c t h0 h1]
      unfold accB; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation of the region's pipeline, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives back what the launch handed over: the accumulator's contents are forgotten. -/
theorem hout2 (c : Dev nD) : (dat2 V c).Φ (Fin.last cfg2.N) ⊢ Pipeline.ΦA spec2 c := by
  have hN : cfg2.N = 128 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_split]
  iintro ⟨⟨HS0, Hrest⟩, Hg⟩
  isplitl [HS0 Hrest]
  · isplitl [HS0]
    · iexists _; iexact HS0
    iexact Hrest
  iexact Hg

end Regions

end Cert.KernelIdeal.Hand

end
-- ==== Proof.RunKI.lean ====
/-
  The whole program as five segments — the two reshapes, the three regions, the last reshape — run from the launch
  to the return.  Between two segments every unscoped buffer of a core holds known contents: the launch memory, then
  each host operation's result, then, after a region, what its write-backs leave in its output array.  The run ends
  with every unscoped buffer at the last of these.
-/
import proofs.«134332_j23905787969796_2_alg».proof.Proof.Gen.KernelIdeal.Launch
import proofs.«134332_j23905787969796_2_alg».proof.Proof.Gen.KernelIdeal.Skeleton
import proofs.«134332_j23905787969796_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134332_j23905787969796_2_alg».proof.Proof.Gen.KernelIdeal.Regions
import proofs.«134332_j23905787969796_2_alg».proof.Proof.FrameKI01
import proofs.«134332_j23905787969796_2_alg».proof.Proof.FrameKI2
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 (m : (ℓ : Loc nD τ sig) → Buf (Elt F) ℓ) (ρ : Dev nD → PrngReg) : Dev nD → Valuation τ sig (Elt F) := fun c b => m (c, b)
/-- After the two reshapes (region 0's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- At region 0's exit: its arrays at what the pipeline leaves (an input as entered, the output at its write-backs
    folded), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- At region 1's exit: its arrays at what the pipeline leaves (an input as entered, the output at its write-backs
    folded), every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- At region 2's exit: its arrays at what the pipeline leaves (an input as entered, the output at its write-backs
    folded), every other buffer as entered. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)

/-- After the last reshape: the contents at the return. -/
abbrev W5 : Dev nD → Valuation τ sig (Elt F) := fun c => StableHlo.after hostOps3 (W4 m ρ c)

/-! ## The proof data family and the thread state -/

abbrev padm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) padm p) c
  | ⟨0, _⟩ => fun c => dat0 (U1 m ρ) c
  | ⟨1, _⟩ => fun c => dat1 (U2 m ρ) c
  | ⟨2, _⟩ => fun c => dat2 (U3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the return contents, the generator register. -/
abbrev Tₙ (c : Dev nD) : sProp 𝕄 := iprop(StableHlo.held (c : Thread nD τ) (Pipeline.ucRefs τ sig) (W5 m ρ c) ∗ ∃ r, prngReg c r)

/-- The state the last reshape leaves is the last thread state beside the core owing nothing. -/
theorem last_state (c : Dev nD) : (iprop(StableHlo.held (c : Thread nD τ) (Pipeline.ucRefs τ sig) (W5 m ρ c) ∗ R c) : sProp 𝕄)
    ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered with every unscoped buffer at `W1`, left with them at `W2`. Its
    arrays are split out of the unscoped buffers and put back at what the write-backs leave; the generator register
    goes into the region's invariant and comes back; nothing is owed. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its
    arrays are split out of the unscoped buffers and put back at what the write-backs leave; the generator register
    goes into the region's invariant and comes back; nothing is owed. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W3`, left with them at `W4`. Its
    arrays are split out of the unscoped buffers and put back at what the write-backs leave; the generator register
    goes into the region's invariant and comes back; nothing is owed. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hI : (iprop(Pipeline.scopedRest spec2 c ∗ ∃ r, prngReg c r) : sProp 𝕄) ⊢ (pdats m ρ 2 c).Φ 0 := hin2 (U3 m ρ) c
    iintro ⟨Hp, -, Hr⟩
    iapply hI
    isplitl [Hr]; · iexact Hr
    iexact Hp
  hout c := by
    rw [Pipeline.ownSems0_none]
    have hO : (pdats m ρ 2 c).Φ (Fin.last _) ⊢ (iprop(Pipeline.scopedRest spec2 c ∗ ∃ r, prngReg c r) : sProp 𝕄) := hout2 (U3 m ρ) c
    iintro H
    ihave H' := hO $$ H
    icases H' with ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev rsegs : List (Pipeline.Seg (pcfgs (F := F)) padm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (rsegs m ρ) := (main_chain c).trans (by chain_rfl)

set_option backward.isDefEq.respectTransparency.types false in
/-- THE RUN: from any memory with zero counters, every weakly fair execution of the program on the TensorCores
    terminates, nothing faulting, and in every final state each unscoped buffer of each core holds the return
    contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) padm (pdats m ρ) () cellOf_inj emb₁ defs₀ 𝒱₀ L lv m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched -/

theorem W1_of (c : Dev nD) (r : Ref sig .tc) (h : r ∉ hostOps0_W) : W1 m ρ c r = W0 m ρ c r :=
  StableHlo.after_of_writes_sub hostOps0 _ hostOps0_writes h
theorem W5_of (c : Dev nD) (r : Ref sig .tc) (h : r ∉ hostOps3_W) : W5 m ρ c r = W4 m ρ c r :=
  StableHlo.after_of_writes_sub hostOps3 _ hostOps3_writes h

/-- No host operation writes the activation argument and no region has it as an array. -/
theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <| (W3_of_ne m ρ c main_arg0 (by decide)).trans <|
    (W2_of_ne m ρ c main_arg0 (by decide)).trans <| (W1_of m ρ c main_arg0 (by decide)).trans rfl
/-- The weight argument is the input array of region 1, which leaves it as entered. -/
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <|
    ((W3_arr m ρ c 0).trans (((dat1 (U2 m ρ) c).arrAt_in 0 rfl _).trans (A_eq1 (U2 m ρ) c 0))).trans <|
    (W2_of_ne m ρ c main_arg1 (by decide)).trans <| (W1_of m ρ c main_arg1 (by decide)).trans rfl
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of_ne m ρ c main_arg2 (by decide)).trans <|
    (W2_of_ne m ρ c main_arg2 (by decide)).trans <| (W1_of m ρ c main_arg2 (by decide)).trans rfl

/-- THE FRAME: the program runs to the end, faults nowhere, and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Hand

end
-- ==== Proof.Spec.lean ====
/-
  The mathematics both programs compute, as functions of the argument arrays over the extended reals.

  An entry `a` of a block whose largest magnitude is `mx` is replaced by `q · s`, where the scale is
  `s = max (mx / 127) ε` and `q = min 127 (max (−128) (round (a / s)))` (round to nearest, ties to even).
  For the activation `x : [8192, 4096]` a block is 128 consecutive entries of one row; for the weight
  `w : [4096, 4096]` a block is a 128 × 128 tile.  The result is `x̂ · ŵᵀ + b`: entry `(r, n)` is the sum over
  `j < 4096` of `x̂ (r, j) · ŵ (n, j)`, plus `b n`.
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 4096]⟩
abbrev SW : Shape := ⟨2, ![4096, 4096]⟩
abbrev SB : Shape := ⟨1, ![4096]⟩

/-- The float literals of the two programs, as the extended reals their words denote: 127, −128, the floor
    `ε` under every scale, and −∞ (the start of every maximum). -/
def c127 : EReal := Ideal.ofBits .f32 0x42FE0000#32
def cLo : EReal := Ideal.ofBits .f32 0xC3000000#32
def cEps : EReal := Ideal.ofBits .f32 0x2B8CBCCC#32
def cBot : EReal := Ideal.ofBits .f32 0xFF800000#32

/-- The magnitude of an extended real. -/
def absE (a : EReal) : EReal := max a (-a)

/-- The scale of a block whose largest magnitude is `mx`. -/
def scaleOf (mx : EReal) : EReal := max (Ideal.div mx c127) cEps

/-- One entry quantized at scale `s` and scaled back. -/
def qd (a s : EReal) : EReal :=
  min c127 (max cLo (Ideal.liftRound Ideal.roundHalfEven (Ideal.div a s))) * s

/-- Entry `c` of the 128-block number `kb` of an axis of extent 4096. -/
def col (kb : Fin 32) (c : Fin 128) : Fin 4096 := ⟨kb.val * 128 + c.val, by have := kb.isLt; have := c.isLt; omega⟩

/-- The 128-block an entry of an axis of extent 4096 lies in. -/
def blk (j : Fin 4096) : Fin 32 := ⟨j.val / 128, by have := j.isLt; omega⟩

/-- The largest magnitude in block `kb` of row `r` of the activation. -/
def actMax (x : SX.Idx → EReal) (r : Fin 8192) (kb : Fin 32) : EReal :=
  (Finset.univ : Finset (Fin 128)).fold max cBot fun c => absE (x (ix2 r (col kb c)))

/-- The activation, quantized block by block and scaled back. -/
def xdq (x : SX.Idx → EReal) : SX.Idx → EReal := fun i =>
  qd (x i) (scaleOf (actMax x ⟨(i 0).val, (i 0).isLt⟩ (blk ⟨(i 1).val, (i 1).isLt⟩)))

/-- The largest magnitude in tile `(nb, kb)` of the weight: the largest, over the tile's rows, of each row's
    largest magnitude. -/
def wMax (w : SW.Idx → EReal) (nb kb : Fin 32) : EReal :=
  (Finset.univ : Finset (Fin 128)).fold max cBot fun r =>
    (Finset.univ : Finset (Fin 128)).fold max cBot fun c => absE (w (ix2 (col nb r) (col kb c)))

/-- The weight, quantized tile by tile and scaled back. -/
def wdq (w : SW.Idx → EReal) : SW.Idx → EReal := fun i =>
  qd (w i) (scaleOf (wMax w (blk ⟨(i 0).val, (i 0).isLt⟩) (blk ⟨(i 1).val, (i 1).isLt⟩)))

/-- `x̂ · ŵᵀ + b`, entry by entry. -/
def lin (xq : SX.Idx → EReal) (wq : SW.Idx → EReal) (b : SB.Idx → EReal) : SX.Idx → EReal := fun i =>
  (∑ j : Fin 4096, xq (ix2 (⟨(i 0).val, (i 0).isLt⟩ : Fin 8192) j) * wq (ix2 (⟨(i 1).val, (i 1).isLt⟩ : Fin 4096) j))
    + b (ix1 (⟨(i 1).val, (i 1).isLt⟩ : Fin 4096))

/-- The whole computation on the activation already laid out as [8192, 4096]. -/
def out (x : SX.Idx → EReal) (w : SW.Idx → EReal) (b : SB.Idx → EReal) : SX.Idx → EReal :=
  lin (xdq x) (wdq w) b

end Cert.Spec

end
-- ==== Proof.ValKI.lean ====
/-
  The program's return value, read through the segment boundaries.  The last reshape lays out the matrix-product
  region's output array; that array is `x̂ · ŵᵀ + b` of the two quantize regions' output arrays and the bias row; those
  are the quantized-and-scaled-back activation (itself the first reshape of the argument) and weight.  The three
  regions' values are taken as hypotheses here and supplied where the claim is assembled.
-/
import proofs.«134332_j23905787969796_2_alg».proof.Proof.RunKI
import proofs.«134332_j23905787969796_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.ShloMosaic.StableHlo
open Idealize.SL.Sem
open Idealize.ShloMosaic.Pipeline (Dat)
open Cert.KernelIdeal Cert.KernelIdeal.Gen

/-- What each region's output array ends holding, as a function of the contents the region is entered with. -/
structure RegionValues : Prop where
  act : ∀ (V : (c : Dev nD) → (b : Ref sig .tc) → Buf (Elt Ideal) ((c : Thread nD τ).loc b)) (c : Dev nD),
    (dat0 (F := Ideal) V c).arrAt 1 cfg0.N = Cert.Spec.xdq (V c main_v0)
  weight : ∀ (V : (c : Dev nD) → (b : Ref sig .tc) → Buf (Elt Ideal) ((c : Thread nD τ).loc b)) (c : Dev nD),
    (dat1 (F := Ideal) V c).arrAt 1 cfg1.N = Cert.Spec.wdq (V c main_arg1)
  out : ∀ (V : (c : Dev nD) → (b : Ref sig .tc) → Buf (Elt Ideal) ((c : Thread nD τ).loc b)) (c : Dev nD),
    (dat2 (F := Ideal) V c).arrAt 3 cfg2.N = Cert.Spec.lin (V c main_v2) (V c main_v3) (fun j => V c main_v1 (ix2 (0 : Fin 1) (⟨(j 0).val, (j 0).isLt⟩ : Fin 4096)))

variable (m : (ℓ : Loc nD τ sig) → Buf (Elt Ideal) ℓ) (ρ : Dev nD → PrngReg)

/-- The activation as the first region finds it: the argument reshaped to [8192, 4096]. -/
theorem U1_v0 (c : Dev nD) :
    U1 m ρ c main_v0 = shapeCast S8192x4096 (m ((c : Thread nD τ).loc main_arg0)) Facts₀.shapeCasts_S4x2048x4096_S8192x4096 := by
  show StableHlo.after hostOps0 (W0 m ρ c) (Proc.devRef .tc main_v0) = _
  after_results; rfl

/-- The bias row as the third region finds it: the argument reshaped to [1, 4096]. -/
theorem U1_v1 (c : Dev nD) :
    U1 m ρ c main_v1 = shapeCast S1x4096 (m ((c : Thread nD τ).loc main_arg2)) Facts₀.shapeCasts_S4096_S1x4096 := by
  show StableHlo.after hostOps0 (W0 m ρ c) (Proc.devRef .tc main_v1) = _
  after_results; rfl

theorem U2_arg1 (c : Dev nD) : U2 m ρ c main_arg1 = m ((c : Thread nD τ).loc main_arg1) :=
  (W2_of_ne m ρ c main_arg1 (by decide)).trans ((W1_of m ρ c main_arg1 (by decide)).trans rfl)

theorem U3_v2 (h : RegionValues) (c : Dev nD) : U3 m ρ c main_v2 = Cert.Spec.xdq (U1 m ρ c main_v0) :=
  (W3_of_ne m ρ c main_v2 (by decide)).trans ((W2_arr m ρ c 1).trans (h.act _ c))

theorem U3_v3 (h : RegionValues) (c : Dev nD) : U3 m ρ c main_v3 = Cert.Spec.wdq (m ((c : Thread nD τ).loc main_arg1)) :=
  (W3_arr m ρ c 1).trans ((h.weight _ c).trans (congrArg Cert.Spec.wdq (U2_arg1 m ρ c)))

theorem U3_v1 (c : Dev nD) :
    U3 m ρ c main_v1 = shapeCast S1x4096 (m ((c : Thread nD τ).loc main_arg2)) Facts₀.shapeCasts_S4096_S1x4096 :=
  (W3_of_ne m ρ c main_v1 (by decide)).trans ((W2_of_ne m ρ c main_v1 (by decide)).trans (U1_v1 m ρ c))

/-- The bias row read at column `j` is the argument's entry `j`. -/
theorem bias_row (b : S4096.Idx → EReal) (j : S4096.Idx) :
    shapeCast S1x4096 b Facts₀.shapeCasts_S4096_S1x4096 (ix2 (0 : Fin 1) (⟨(j 0).val, (j 0).isLt⟩ : Fin 4096)) = b j :=
  shapeCast_apply b Facts₀.shapeCasts_S4096_S1x4096 _ j (by
    rw [Shape.rowMajor_val_one, Shape.rowMajor_val_two]; show (j 0).val = 0 * 4096 + (j 0).val; omega)

/-- The matrix-product region's output array at the end. -/
theorem W4_v4 (h : RegionValues) (c : Dev nD) :
    W4 m ρ c (Proc.devRef .tc main_v4) = Cert.Spec.out (shapeCast S8192x4096 (m ((c : Thread nD τ).loc main_arg0)) Facts₀.shapeCasts_S4x2048x4096_S8192x4096)
      (m ((c : Thread nD τ).loc main_arg1)) (m ((c : Thread nD τ).loc main_arg2)) := by
  refine (W4_arr m ρ c 3).trans ((h.out _ c).trans ?_)
  rw [U3_v2 m ρ h c, U3_v3 m ρ h c, U3_v1 m ρ c, U1_v0 m ρ c]
  unfold Cert.Spec.out
  congr 1
  funext j
  exact bias_row _ j

/-- THE RETURN VALUE: the last reshape of `x̂ · ŵᵀ + b`. -/
theorem W5_v5 (h : RegionValues) (c : Dev nD) :
    W5 m ρ c (Proc.devRef .tc main_v5) = shapeCast S4x2048x4096 (Cert.Spec.out (shapeCast S8192x4096 (m ((c : Thread nD τ).loc main_arg0)) Facts₀.shapeCasts_S4x2048x4096_S8192x4096)
      (m ((c : Thread nD τ).loc main_arg1)) (m ((c : Thread nD τ).loc main_arg2))) Facts₀.shapeCasts_S8192x4096_S4x2048x4096 := by
  rw [← W4_v4 m ρ h c]
  show StableHlo.after hostOps3 (W4 m ρ c) (Proc.devRef .tc main_v5) = _
  after_results; rfl

/-- The run with the result named: every weakly fair execution ends with the result array at the last reshape of
    `x̂ · ŵᵀ + b` of the arguments, and the arguments as launched. -/
theorem run_value (h : RegionValues) : θ_run defs (onTc (τ := τ) (main (F := Ideal))) ⟨m, fun _ => 0, ρ⟩ (fun r => ∀ c : Dev nD,
      r.2.mem ((c.tc : Thread nD τ).loc main_v5) = shapeCast S4x2048x4096 (Cert.Spec.out (shapeCast S8192x4096 (m ((c : Thread nD τ).loc main_arg0)) Facts₀.shapeCasts_S4x2048x4096_S8192x4096)
        (m ((c : Thread nD τ).loc main_arg1)) (m ((c : Thread nD τ).loc main_arg2))) Facts₀.shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c =>
    ⟨(hr c _ (mem_uc main_v5 (by decide))).trans (W5_v5 m ρ h c),
     (hr c _ (mem_uc main_arg0 (by decide))).trans (W5_main_arg0 m ρ c),
     (hr c _ (mem_uc main_arg1 (by decide))).trans (W5_main_arg1 m ρ c),
     (hr c _ (mem_uc main_arg2 (by decide))).trans (W5_main_arg2 m ρ c)⟩) (run_all m ρ)

end Cert.KernelIdeal.Hand

end
-- ==== Proof.PayLayout.lean ====
/-
  The layout steps of the two quantizing bodies read at one entry: a row of 4096 viewed as 32 stretches of 128 and back,
  a unit axis added, one value repeated along an axis, and a maximum along one axis as a fold of `max`.
-/
import proofs.«134332_j23905787969796_2_alg».proof.Proof.Gen.KernelIdeal.Skeleton
import proofs.«134332_j23905787969796_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

section Layout
variable {α : Type}

/-- The place of a position below 4096 inside its stretch of 128. -/
def lane (q : Fin 4096) : Fin 128 := ⟨q.val % 128, Nat.mod_lt _ (by decide)⟩

/-- A position is the place `lane q` of the stretch `blk q`. -/
theorem col_blk_lane (q : Fin 4096) : Spec.col (Spec.blk q) (lane q) = q :=
  Fin.ext (by show q.val / 128 * 128 + q.val % 128 = q.val; omega)

/-- Rows of 4096 viewed as 32 stretches of 128: entry `(i, j, k)` is entry `(i, j · 128 + k)`. -/
theorem split_apply {a : ℕ} (x : (⟨2, ![a, 4096]⟩ : Shape).Idx → α)
    (h : (⟨2, ![a, 4096]⟩ : Shape).ShapeCasts ⟨3, ![a, 32, 128]⟩) (i : Fin a) (j : Fin 32) (k : Fin 128) :
    shapeCast ⟨3, ![a, 32, 128]⟩ x h (ix3 i j k) = x (ix2 i (Spec.col j k)) :=
  shapeCast_apply x h _ _ (by
    rw [Shape.rowMajor_val_three, Shape.rowMajor_val_two]
    show i.val * 4096 + (j.val * 128 + k.val) = (i.val * 32 + j.val) * 128 + k.val
    omega)

/-- The way back: entry `(i, q)` of the rows of 4096 is entry `(i, blk q, lane q)` of the stretches. -/
theorem merge_apply {a : ℕ} (x : (⟨3, ![a, 32, 128]⟩ : Shape).Idx → α)
    (h : (⟨3, ![a, 32, 128]⟩ : Shape).ShapeCasts ⟨2, ![a, 4096]⟩) (i : Fin a) (q : Fin 4096) :
    shapeCast ⟨2, ![a, 4096]⟩ x h (ix2 i q) = x (ix3 i (Spec.blk q) (lane q)) :=
  shapeCast_apply x h _ _ (by
    rw [Shape.rowMajor_val_three, Shape.rowMajor_val_two]
    show (i.val * 32 + q.val / 128) * 128 + q.val % 128 = i.val * 4096 + q.val
    omega)

/-- A trailing unit axis added: entry `(i, j, u)` is entry `(i, j)`. -/
theorem keep_apply {a : ℕ} (x : (⟨2, ![a, 32]⟩ : Shape).Idx → α)
    (h : (⟨2, ![a, 32]⟩ : Shape).ShapeCasts ⟨3, ![a, 32, 1]⟩) (i : Fin a) (j : Fin 32) (u : Fin 1) :
    shapeCast ⟨3, ![a, 32, 1]⟩ x h (ix3 i j u) = x (ix2 i j) :=
  shapeCast_apply x h _ _ (by
    have hu : u.val = 0 := by omega
    rw [Shape.rowMajor_val_three, Shape.rowMajor_val_two]
    show i.val * 32 + j.val = (i.val * 32 + j.val) * 1 + u.val
    omega)

/-- One value per row and stretch, repeated along the stretch: entry `(i, j, k)` is entry `(i, j, 0)`. -/
theorem spread_apply (x : (⟨3, ![256, 32, 1]⟩ : Shape).Idx → α)
    (h : (⟨3, ![256, 32, 1]⟩ : Shape).Broadcasts ⟨3, ![256, 32, 128]⟩) (i : Fin 256) (j : Fin 32) (k : Fin 128) :
    broadcastTo ⟨3, ![256, 32, 128]⟩ x h (ix3 i j k) = x (ix3 i j (0 : Fin 1)) :=
  broadcastTo_apply x h _ _ fun ax => match ax with
    | ⟨0, _⟩ => rfl
    | ⟨1, _⟩ => rfl
    | ⟨2, _⟩ => rfl

/-- One value per stretch, repeated over all 128 rows and along the stretch: entry `(i, j, k)` is entry `(0, j, 0)`. -/
theorem spreadAll_apply (x : (⟨3, ![1, 32, 1]⟩ : Shape).Idx → α)
    (h : (⟨3, ![1, 32, 1]⟩ : Shape).Broadcasts ⟨3, ![128, 32, 128]⟩) (i : Fin 128) (j : Fin 32) (k : Fin 128) :
    broadcastTo ⟨3, ![128, 32, 128]⟩ x h (ix3 i j k) = x (ix3 (0 : Fin 1) j (0 : Fin 1)) :=
  broadcastTo_apply x h _ _ fun ax => match ax with
    | ⟨0, _⟩ => rfl
    | ⟨1, _⟩ => rfl
    | ⟨2, _⟩ => rfl

end Layout

/-- Rounding to the nearest integer, ties to even, is taken entry by entry. -/
theorem roundeven_apply {s : Shape} {φ : FTy} (x : FVec Ideal s φ) (i : s.Idx) :
    roundeven x i = Ideal.liftRound Ideal.roundHalfEven (x i) := rfl

/-- The magnitude is taken entry by entry. -/
theorem absf_apply {s : Shape} {φ : FTy} (x : FVec Ideal s φ) (i : s.Idx) : absf x i = Spec.absE (x i) := rfl

/-- The largest entry along a stretch: the maximum over axis 2 of a `[a, 32, 128]` array at `(i, j)` is the fold of
    `max`, from `−∞`, over the 128 entries `(i, j, k)`. -/
theorem laneMax_apply {a : ℕ} (src : FVec Ideal ⟨3, ![a, 32, 128]⟩ .f32)
    (h : Shape.Reduces ⟨3, ![a, 32, 128]⟩ [2] ⟨2, ![a, 32]⟩) (hφ : FKind.Formats .f32)
    (hacc : (0xFF800000#32 : BitVec 32) = 0xFF800000#32) (i : Fin a) (j : Fin 32) :
    multiReduction (F := Ideal) .maximumf [2] ⟨2, ![a, 32]⟩ src 0xFF800000#32 h hφ hacc (ix2 i j)
      = (Finset.univ : Finset (Fin 128)).fold max Spec.cBot fun k => src (ix3 i j k) := by
  refine (Ideal.multiReduction_maximumf_single src 0xFF800000#32 h hφ hacc (ix2 i j)).trans ?_
  have e : (src ∘ h.lift (ix2 i j) : Fin 128 → EReal) = fun k => src (ix3 i j k) := funext fun k =>
    congrArg src (funext fun ax => Fin.ext (by
      match ax with
      | ⟨0, _⟩ => rfl
      | ⟨1, _⟩ => rfl
      | ⟨2, _⟩ => rfl))
  exact congrArg (Finset.fold max Spec.cBot · (Finset.univ : Finset (Fin 128))) e

/-- The largest entry down the rows: the maximum over axis 0 of a `[128, 32]` array at `j` is the fold of `max`, from
    `−∞`, over the 128 entries `(r, j)`. -/
theorem rowMax_apply (src : FVec Ideal ⟨2, ![128, 32]⟩ .f32)
    (h : Shape.Reduces ⟨2, ![128, 32]⟩ [0] ⟨1, ![32]⟩) (hφ : FKind.Formats .f32)
    (hacc : (0xFF800000#32 : BitVec 32) = 0xFF800000#32) (j : Fin 32) :
    multiReduction (F := Ideal) .maximumf [0] ⟨1, ![32]⟩ src 0xFF800000#32 h hφ hacc (ix1 j)
      = (Finset.univ : Finset (Fin 128)).fold max Spec.cBot fun r => src (ix2 r j) := by
  refine (Ideal.multiReduction_maximumf_single src 0xFF800000#32 h hφ hacc (ix1 j)).trans ?_
  have e : (src ∘ h.lift (ix1 j) : Fin 128 → EReal) = fun r => src (ix2 r j) := funext fun r =>
    congrArg src (funext fun ax => Fin.ext (by
      match ax with
      | ⟨0, _⟩ => rfl
      | ⟨1, _⟩ => rfl))
  exact congrArg (Finset.fold max Spec.cBot · (Finset.univ : Finset (Fin 128))) e

end Cert.KernelIdeal.Pay

end
-- ==== Proof.PayAct.lean ====
/-
  The activation-quantizing body's arithmetic read at one entry, over the extended reals: entry `(p, q)` of a block of
  256 rows of 4096 is the entry quantized at the scale of its stretch of 128 (the stretch `blk q` of row `p`) and
  scaled back; the scale is that of the largest magnitude in the stretch.
-/
import proofs.«134332_j23905787969796_2_alg».proof.Proof.PayLayout

noncomputable section

namespace Cert.KernelIdeal.Pay

open Idealize.ShloMosaic Idealize.ShloMosaic.ValueIdx Cert.KernelIdeal Cert.KernelIdeal.Gen

/-- The largest magnitude of stretch `b` of row `p`, as the body computes it. -/
theorem act_max (v0 : Vec Ideal S256x4096 .f32) (p : Fin 256) (b : Fin 32) :
    multiReduction (F := Ideal) .maximumf [2] S256x32 (absf (shapeCast S256x32x128 v0 shapeCasts_S256x4096_S256x32x128))
        0xFF800000#32 reduces_S256x32x128_S256x32 (.inl rfl) rfl (ix2 p b)
      = (Finset.univ : Finset (Fin 128)).fold max Spec.cBot fun c => Spec.absE (v0 (ix2 p (Spec.col b c))) := by
  refine (laneMax_apply _ _ _ _ p b).trans ?_
  refine congrArg (Finset.fold max Spec.cBot · (Finset.univ : Finset (Fin 128))) (funext fun c => ?_)
  exact congrArg Spec.absE (split_apply v0 _ p b c)

theorem pay_act (v0 : Vec Ideal S256x4096 .f32) (p : Fin 256) (q : Fin 4096) :
    k0_pay1 (F := Ideal) v0 (ix2 p q) = Spec.qd (v0 (ix2 p q)) (Spec.scaleOf ((Finset.univ : Finset (Fin 128)).fold max Spec.cBot fun c => Spec.absE (v0 (ix2 p (Spec.col (Spec.blk q) c))))) := by
  unfold k0_pay1
  rw [shapeCast_self]
  -- down to the entry's own arithmetic: the product of the clamped rounded quotient and the scale
  rw [truncf_apply, merge_apply, mulf_apply, minimumf_apply, maximumf_apply, broadcast_apply, broadcast_apply,
    roundeven_apply, divf_apply, split_apply, col_blk_lane]
  -- the scale read at the entry: one value per row and stretch
  rw [spread_apply, keep_apply, maximumf_apply, divf_apply, broadcast_apply, broadcast_apply, act_max]
  rfl

end Cert.KernelIdeal.Pay

end
-- ==== Proof.ArrAct.lean ====
/-
  The activation's quantize-dequantize pass, from blocks to the array: the block written back at grid point `t` is rows
  `256·t … 256·t + 255` of the array quantized stretch by stretch, and the 32 blocks tile the array, so the array ends
  holding the quantized-dequantized activation entry by entry.
-/
import proofs.«134332_j23905787969796_2_alg».proof.Proof.FrameKI01
import proofs.«134332_j23905787969796_2_alg».proof.Proof.PayAct
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay

variable (V : (c : Dev nD) → (b : Ref sig .tc) → Buf (Elt Ideal) ((c : Thread nD τ).loc b))

theorem hz0 : (![0, 0] : Fin 2 → Nat) = fun _ => 0 := funext fun a => by fin_cases a <;> rfl

/-- Both windows' block at point `t` is block `(t, 0)` of its array. -/
theorem idx_act : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `p` of the block at point `t`, as a row of the array. -/
def rowAct (t : Fin 32) (p : Fin 256) : Fin 8192 := ⟨t.val * 256 + p.val, by have := t.isLt; have := p.isLt; omega⟩

/-- The input block at point `t` read at `(p, q)` is the array at `(256·t + p, q)`. -/
theorem iblk_act (c : Dev nD) (t : Fin cfg0.N) (p : Fin 256) (q : Fin 4096) :
    (iblk0 V c 0 t : Vec Ideal S256x4096 .f32) (ix2 p q)
      = (V c main_v0 : S8192x4096.Idx → EReal) (ix2 (rowAct (t.cast N_0) p) q) := by
  obtain ⟨e0, e1, -, -⟩ := idx_act t
  unfold iblk0
  rw [View.read_apply]
  show V c main_v0 _ = V c main_v0 _
  congr 1
  funext a
  apply Fin.ext
  match a with
  | ⟨0, _⟩ => show win0_0.index t (0 : Fin 2) * 256 + 1 * p.val = t.val * 256 + p.val; rw [e0]; omega
  | ⟨1, _⟩ => show win0_0.index t (1 : Fin 2) * 4096 + 1 * q.val = q.val; rw [e1]; omega

/-- What point `t` writes back is block `t` of the quantized-dequantized activation. -/
theorem flushed_act (c : Dev nD) (t : Fin cfg0.N) :
    (dat0 (F := Ideal) V c).flushed 1 t = ((cfg0.win 1).blk t).view.read (Elt Ideal) (Cert.Spec.xdq (V c main_v0)) := by
  show (cfg0.win 1).cut (grid0.coords t) ((dat0 V c).after 1 t) = _
  rw [after0_1]
  unfold out0_1
  rw [View.canon_unit_zero hz0]
  simp only [View.ld_unit_zero (S := S256x4096) hz0]
  obtain ⟨-, -, e2, e3⟩ := idx_act t
  funext j
  obtain ⟨p, q, rfl⟩ : ∃ (p : Fin 256) (q : Fin 4096), j = ix2 p q := ⟨j 0, j 1, eq_ix2 j⟩
  have hi : (((cfg0.win 1).blk t).view.emb (ix2 p q) : S8192x4096.Idx) = ix2 (rowAct (t.cast N_0) p) q :=
    funext fun a => Fin.ext (by
      match a with
      | ⟨0, _⟩ => show win0_1.index t (0 : Fin 2) * 256 + 1 * p.val = t.val * 256 + p.val; rw [e2]; omega
      | ⟨1, _⟩ => show win0_1.index t (1 : Fin 2) * 4096 + 1 * q.val = q.val; rw [e3]; omega)
  show k0_pay1 (F := Ideal) (iblk0 V c 0 t) (ix2 p q)
    = Cert.Spec.xdq (V c main_v0) (((cfg0.win 1).blk t).view.emb (ix2 p q))
  rw [hi, pay_act]
  simp only [iblk_act]
  rfl

/-- An index of the array is in point `t`'s block iff each coordinate is in the block's range on its axis. -/
theorem mem_blk_act (t : Fin cfg0.N) (i : S8192x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v2).slice (win0_1.rect t)).set ↔ _
  rw [View.set_slice_whole, Rect.mem_set_unit]
  exact Iff.rfl

/-- Row `r` of the array is in the block of point `r / 256`. -/
theorem cover_act (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  let t : Fin cfg0.N := Fin.cast N_0.symm ⟨(i 0).val / 256, by omega⟩
  have ht : t.val = (i 0).val / 256 := rfl
  obtain ⟨-, -, e2, e3⟩ := idx_act t
  refine ⟨t, flush0_1 t, ?_⟩
  rw [mem_blk_act]
  intro a
  match a with
  | ⟨0, _⟩ =>
    show win0_1.index t (0 : Fin 2) * 256 ≤ (i 0).val ∧ (i 0).val < win0_1.index t (0 : Fin 2) * 256 + 256
    rw [e2, ht]; omega
  | ⟨1, _⟩ =>
    show win0_1.index t (1 : Fin 2) * 4096 ≤ (i 1).val ∧ (i 1).val < win0_1.index t (1 : Fin 2) * 4096 + 4096
    rw [e3]; omega

/-- The array after the pass is the quantized-dequantized activation. -/
theorem arr_act (c : Dev nD) :
    (dat0 (F := Ideal) V c).arrAt 1 cfg0.N = Cert.Spec.xdq (V c main_v0) :=
  (dat0 (F := Ideal) V c).arrAt_eq_of_cover 1 (Cert.Spec.xdq (V c main_v0)) (fun t _ => flushed_act V c t) cover_act

end Cert.KernelIdeal.Hand

end
-- ==== Proof.PayWeight.lean ====
/-
  The weight-quantizing body's arithmetic read at one entry, over the extended reals: entry `(p, q)` of a block of
  128 rows of 4096 is the entry quantized at the scale of its 128 × 128 tile (all 128 rows of the block, the stretch
  `blk q` of the columns) and scaled back; the scale is that of the largest magnitude in the tile, taken as the
  largest, over the rows, of each row's largest magnitude along the stretch.
-/
import proofs.«134332_j23905787969796_2_alg».proof.Proof.PayLayout

noncomputable section

namespace Cert.KernelIdeal.Pay

open Idealize.ShloMosaic Idealize.ShloMosaic.ValueIdx Cert.KernelIdeal Cert.KernelIdeal.Gen

/-- The largest magnitude of the tile of column stretch `b`, as the body computes it: along each row's stretch first,
    then down the 128 rows. -/
theorem weight_max (v0 : Vec Ideal S128x4096 .f32) (b : Fin 32) :
    multiReduction (F := Ideal) .maximumf [0] S32
        (multiReduction (F := Ideal) .maximumf [2] S128x32 (absf (shapeCast S128x32x128 v0 shapeCasts_S128x4096_S128x32x128))
          0xFF800000#32 reduces_S128x32x128_S128x32 (.inl rfl) rfl)
        0xFF800000#32 reduces_S128x32_S32 (.inl rfl) rfl (ix1 b)
      = (Finset.univ : Finset (Fin 128)).fold max Spec.cBot fun r =>
          (Finset.univ : Finset (Fin 128)).fold max Spec.cBot fun c => Spec.absE (v0 (ix2 r (Spec.col b c))) := by
  refine (rowMax_apply _ _ _ _ b).trans ?_
  refine congrArg (Finset.fold max Spec.cBot · (Finset.univ : Finset (Fin 128))) (funext fun r => ?_)
  refine (laneMax_apply _ _ _ _ r b).trans ?_
  refine congrArg (Finset.fold max Spec.cBot · (Finset.univ : Finset (Fin 128))) (funext fun c => ?_)
  exact congrArg Spec.absE (split_apply v0 _ r b c)

theorem pay_weight (v0 : Vec Ideal S128x4096 .f32) (p : Fin 128) (q : Fin 4096) :
    k1_pay1 (F := Ideal) v0 (ix2 p q) = Spec.qd (v0 (ix2 p q)) (Spec.scaleOf ((Finset.univ : Finset (Fin 128)).fold max Spec.cBot fun r => (Finset.univ : Finset (Fin 128)).fold max Spec.cBot fun c => Spec.absE (v0 (ix2 r (Spec.col (Spec.blk q) c))))) := by
  unfold k1_pay1
  -- down to the entry's own arithmetic: the product of the clamped rounded quotient and the scale
  rw [truncf_apply, merge_apply, mulf_apply, minimumf_apply, maximumf_apply, broadcast_apply, broadcast_apply,
    roundeven_apply, divf_apply, split_apply, col_blk_lane]
  -- the scale read at the entry: one value per column stretch
  rw [spreadAll_apply, shapeCast_self, keep_apply, maximumf_apply, divf_apply, broadcast_apply, broadcast_apply,
    shapeCast_a_1a_apply, weight_max]
  rfl

end Cert.KernelIdeal.Pay

end
-- ==== Proof.ArrWeight.lean ====
/-
  The weight's quantize-dequantize pass, from blocks to the array: the block written back at grid point `t` is rows
  `128·t … 128·t + 127` of the array — exactly the rows of the tiles of tile row `t` — quantized tile by tile, and the
  32 blocks tile the array, so the array ends holding the quantized-dequantized weight entry by entry.
-/
import proofs.«134332_j23905787969796_2_alg».proof.Proof.FrameKI01
import proofs.«134332_j23905787969796_2_alg».proof.Proof.PayWeight
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay

variable (V : (c : Dev nD) → (b : Ref sig .tc) → Buf (Elt Ideal) ((c : Thread nD τ).loc b))

theorem hz1 : (![0, 0] : Fin 2 → Nat) = fun _ => 0 := funext fun a => by fin_cases a <;> rfl

/-- Both windows' block at point `t` is block `(t, 0)` of its array. -/
theorem idx_weight : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Entry `r` of stretch `b` lies in stretch `b`. -/
theorem blk_col (b : Fin 32) (r : Fin 128) : Spec.blk (Spec.col b r) = b :=
  Fin.ext (by show (b.val * 128 + r.val) / 128 = b.val; have := r.isLt; omega)

/-- The input block at point `t` read at `(p, q)` is the array at `(128·t + p, q)`: row `p` of tile row `t`. -/
theorem iblk_weight (c : Dev nD) (t : Fin cfg1.N) (p : Fin 128) (q : Fin 4096) :
    (iblk1 V c 0 t : Vec Ideal S128x4096 .f32) (ix2 p q)
      = (V c main_arg1 : S4096x4096.Idx → EReal) (ix2 (Spec.col (t.cast N_1) p) q) := by
  obtain ⟨e0, e1, -, -⟩ := idx_weight t
  unfold iblk1
  rw [View.read_apply]
  show V c main_arg1 _ = V c main_arg1 _
  congr 1
  funext a
  apply Fin.ext
  match a with
  | ⟨0, _⟩ => show win1_0.index t (0 : Fin 2) * 128 + 1 * p.val = t.val * 128 + p.val; rw [e0]; omega
  | ⟨1, _⟩ => show win1_0.index t (1 : Fin 2) * 4096 + 1 * q.val = q.val; rw [e1]; omega

/-- What point `t` writes back is block `t` of the quantized-dequantized weight. -/
theorem flushed_weight (c : Dev nD) (t : Fin cfg1.N) :
    (dat1 (F := Ideal) V c).flushed 1 t = ((cfg1.win 1).blk t).view.read (Elt Ideal) (Cert.Spec.wdq (V c main_arg1)) := by
  show (cfg1.win 1).cut (grid1.coords t) ((dat1 V c).after 1 t) = _
  rw [after1_1]
  unfold out1_1
  rw [View.canon_unit_zero hz1]
  simp only [View.ld_unit_zero (S := S128x4096) hz1]
  obtain ⟨-, -, e2, e3⟩ := idx_weight t
  funext j
  obtain ⟨p, q, rfl⟩ : ∃ (p : Fin 128) (q : Fin 4096), j = ix2 p q := ⟨j 0, j 1, eq_ix2 j⟩
  have hi : (((cfg1.win 1).blk t).view.emb (ix2 p q) : S4096x4096.Idx) = ix2 (Spec.col (t.cast N_1) p) q :=
    funext fun a => Fin.ext (by
      match a with
      | ⟨0, _⟩ => show win1_1.index t (0 : Fin 2) * 128 + 1 * p.val = t.val * 128 + p.val; rw [e2]; omega
      | ⟨1, _⟩ => show win1_1.index t (1 : Fin 2) * 4096 + 1 * q.val = q.val; rw [e3]; omega)
  show k1_pay1 (F := Ideal) (iblk1 V c 0 t) (ix2 p q)
    = Cert.Spec.wdq (V c main_arg1) (((cfg1.win 1).blk t).view.emb (ix2 p q))
  rw [hi, pay_weight]
  simp only [iblk_weight]
  show _ = Spec.qd ((V c main_arg1 : S4096x4096.Idx → EReal) (ix2 (Spec.col (t.cast N_1) p) q))
    (Spec.scaleOf (Spec.wMax (V c main_arg1) (Spec.blk (Spec.col (t.cast N_1) p)) (Spec.blk q)))
  rw [blk_col]
  rfl

/-- An index of the array is in point `t`'s block iff each coordinate is in the block's range on its axis. -/
theorem mem_blk_weight (t : Fin cfg1.N) (i : S4096x4096.Idx) :
    i ∈ ((cfg1.win 1).blk t).view.set ↔ ∀ a : Fin 2, win1_1.index t a * S128x4096.size a ≤ (i a).val
      ∧ (i a).val < win1_1.index t a * S128x4096.size a + S128x4096.size a := by
  show i ∈ ((View.whole main_v3).slice (win1_1.rect t)).set ↔ _
  rw [View.set_slice_whole, Rect.mem_set_unit]
  exact Iff.rfl

/-- Row `r` of the array is in the block of point `r / 128`. -/
theorem cover_weight (i : S4096x4096.Idx) :
    ∃ t : Fin cfg1.N, (cfg1.win 1).flush t = true ∧ i ∈ ((cfg1.win 1).blk t).view.set := by
  have hi0 : (i 0).val < 4096 := (i 0).isLt
  have hi1 : (i 1).val < 4096 := (i 1).isLt
  let t : Fin cfg1.N := Fin.cast N_1.symm ⟨(i 0).val / 128, by omega⟩
  have ht : t.val = (i 0).val / 128 := rfl
  obtain ⟨-, -, e2, e3⟩ := idx_weight t
  refine ⟨t, flush1_1 t, ?_⟩
  rw [mem_blk_weight]
  intro a
  match a with
  | ⟨0, _⟩ =>
    show win1_1.index t (0 : Fin 2) * 128 ≤ (i 0).val ∧ (i 0).val < win1_1.index t (0 : Fin 2) * 128 + 128
    rw [e2, ht]; omega
  | ⟨1, _⟩ =>
    show win1_1.index t (1 : Fin 2) * 4096 ≤ (i 1).val ∧ (i 1).val < win1_1.index t (1 : Fin 2) * 4096 + 4096
    rw [e3]; omega

/-- The array after the pass is the quantized-dequantized weight. -/
theorem arr_weight (c : Dev nD) :
    (dat1 (F := Ideal) V c).arrAt 1 cfg1.N = Cert.Spec.wdq (V c main_arg1) :=
  (dat1 (F := Ideal) V c).arrAt_eq_of_cover 1 (Cert.Spec.wdq (V c main_arg1)) (fun t _ => flushed_weight V c t) cover_weight

end Cert.KernelIdeal.Hand

end
-- ==== Proof.MatPieces.lean ====
/-
  What each run of the matrix-product body leaves, as values.  Every store of the body covers its whole buffer, so
  the accumulator after a point is the payload of the last store into it: the product of the point's two blocks added
  to zero where `k = 0`, added to what the point before left elsewhere; and where `k = 3` the output block is that
  accumulator plus the bias row.
-/
import proofs.«134332_j23905787969796_2_alg».proof.Proof.FrameKI2
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The zero offsets of a whole-buffer rectangle, as a constant function. -/
theorem zeroOff : (![0, 0] : Fin 2 → Nat) = fun _ => 0 := funext fun a => by fin_cases a <;> rfl

/-- Where `k = 0`: the accumulator is zeroed, read back, and the product of the two blocks added to it. -/
theorem accA_eq (c : Dev nD) (t : Fin cfg2.N) (h0 : t.val % 4 = 0) :
    accA V c t h0 = k2_pay2 (iblk2 V c 0 t) (iblk2 V c 1 t) k2_pay1 := by
  unfold accA
  rw [View.read_writes_eq_canon _ _ _ (scover2_A c _ _ _ _ _ _ _ _ _ _ _ _ _ _ _ _)]
  unfold kernelRun2_A
  dsimp only
  sl_unfold_words
  rw [View.canon_cons_unit_zero (S := S1024x1024) zeroOff, View.readCov_unit_zero (S := S1024x1024) _ zeroOff]
  simp only [View.readAt_eq_ld, (hs2_0 t).read_unread, (hs2_1 t).read_unread, View.ld_unit_zero (S := S1024x1024) zeroOff]

/-- Where `k = 1, 2`: the product of the two blocks is added to what the point before left. -/
theorem accB_eq (c : Dev nD) (t : Fin cfg2.N) (h0 : ¬t.val % 4 = 0) (h1 : ¬t.val % 4 = 3) (xs : Vec F S1024x1024 .f32) :
    accB V c t h0 h1 xs = k2_pay2 (iblk2 V c 0 t) (iblk2 V c 1 t) xs := by
  unfold accB
  rw [View.read_writes_eq_canon _ _ _ (scover2_B c _ _ _ _ _ _ _ _ _ _ _ _ _ _ _ _ _)]
  unfold kernelRun2_B
  dsimp only
  rw [View.canon_unit_zero (S := S1024x1024) zeroOff]
  simp only [View.readAt_eq_ld, (hs2_0 t).read_unread, (hs2_1 t).read_unread, (Memref.isWhole_whole cc2_scratch0).read_unread,
    View.ld_unit_zero (S := S1024x1024) zeroOff]

/-- Where `k = 3` the accumulator is updated in the same way … -/
theorem accC_eq (c : Dev nD) (t : Fin cfg2.N) (h0 : ¬t.val % 4 = 0) (h1 : t.val % 4 = 3) (xs : Vec F S1024x1024 .f32) :
    accC V c t h0 h1 xs = k2_pay2 (iblk2 V c 0 t) (iblk2 V c 1 t) xs := by
  unfold accC
  rw [View.read_writes_eq_canon _ _ _ (scover2_C c _ _ _ _ _ _ _ _ _ _ _ _ _ _ _ _ _)]
  unfold kernelRun2_C
  dsimp only
  sl_unfold_words
  rw [View.canon_unit_zero (S := S1024x1024) zeroOff]
  simp only [View.readAt_eq_ld, (hs2_0 t).read_unread, (hs2_1 t).read_unread, (Memref.isWhole_whole cc2_scratch0).read_unread,
    View.ld_unit_zero (S := S1024x1024) zeroOff]

/-- … and the output block is the updated accumulator plus the bias row. -/
theorem outC_eq (c : Dev nD) (t : Fin cfg2.N) (h0 : ¬t.val % 4 = 0) (h1 : t.val % 4 = 3) (xs : Vec F S1024x1024 .f32) :
    outC V c t h0 h1 xs = k2_pay3 (k2_pay2 (iblk2 V c 0 t) (iblk2 V c 1 t) xs) (iblk2 V c 2 t) := by
  unfold outC
  rw [View.read_writes_eq_canon _ _ _ (cover2_C c _ _ _ _ _ _ _ _ _ _ _ _ _ _ _ _ _)]
  unfold kernelRun2_C
  dsimp only
  sl_unfold_words
  rw [View.canon_unit_zero (S := S1024x1024) zeroOff, View.readCov_unit_zero (S := S1024x1024) _ zeroOff]
  simp only [View.readAt_eq_ld, (hs2_0 t).read_unread, (hs2_1 t).read_unread, (hs2_2 t).read_unread,
    (Memref.isWhole_whole cc2_scratch0).read_unread, View.ld_unit_zero (S := S1024x1024) zeroOff,
    View.ld_unit_zero (S := S1x1024) zeroOff]

end Cert.KernelIdeal.Hand

end
-- ==== Proof.PayMat.lean ====
/-
  The matrix-product body's arithmetic read at one entry, over the extended reals: the zero it starts from, one
  accumulation step (the running value plus the sum over the contracted axis of the products of the two operands'
  entries, both operands contracted along their second axis), and the final addition of the bias row.
-/
import proofs.«134332_j23905787969796_2_alg».proof.Proof.Gen.KernelIdeal.Skeleton
import proofs.«134332_j23905787969796_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- The start value of the accumulator is zero everywhere. -/
theorem pay_zero (p q : Fin 1024) : k2_pay1 (F := Ideal) (ix2 p q) = 0 := by
  unfold k2_pay1
  rw [shapeCast_self]
  exact Ideal.ofBits_zero_f32

/-- The left operand's index at output index `i` and contraction position `k`: row from `i`, column from `k`. -/
theorem lhs_0 (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs_1 (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
/-- The right operand's index there: row from `i`'s column, column from `k`. -/
theorem rhs_0 (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs_1 (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- At output entry `(p, q)` and contraction position `k` the left operand is read at `(p, k)` … -/
theorem lhs_at (p q : Fin 1024) (k : Fin 1024) :
    dot_S1024x1024_S1024x1024_S1024x1024_1_1_0_0_n_n.lhsIdx (ix2 p q)
      ((contrEquiv1 dot_S1024x1024_S1024x1024_S1024x1024_1_1_0_0_n_n 1024 rfl rfl).symm k) = ix2 p k := by
  have hk := contrEquiv1_symm_val dot_S1024x1024_S1024x1024_S1024x1024_1_1_0_0_n_n 1024 rfl rfl k
  exact funext fun a => Fin.ext (by
    match a with
    | ⟨0, _⟩ => exact lhs_0 _ _
    | ⟨1, _⟩ => exact (lhs_1 _ _).trans hk)

/-- … and the right operand at `(q, k)`. -/
theorem rhs_at (p q : Fin 1024) (k : Fin 1024) :
    dot_S1024x1024_S1024x1024_S1024x1024_1_1_0_0_n_n.rhsIdx (ix2 p q)
      ((contrEquiv1 dot_S1024x1024_S1024x1024_S1024x1024_1_1_0_0_n_n 1024 rfl rfl).symm k) = ix2 q k := by
  have hk := contrEquiv1_symm_val dot_S1024x1024_S1024x1024_S1024x1024_1_1_0_0_n_n 1024 rfl rfl k
  exact funext fun a => Fin.ext (by
    match a with
    | ⟨0, _⟩ => exact rhs_0 _ _
    | ⟨1, _⟩ => exact (rhs_1 _ _).trans hk)

/-- One accumulation step at entry `(p, q)`: the running value plus `∑ j, a (p, j) · b (q, j)`. -/
theorem pay_acc (v3 v5 : Vec Ideal S1024x1024 .bf16) (v7 : Vec Ideal S1024x1024 .f32) (p q : Fin 1024) :
    k2_pay2 (F := Ideal) v3 v5 v7 (ix2 p q) = v7 (ix2 p q) + ∑ j : Fin 1024, v3 (ix2 p j) * v5 (ix2 q j) := by
  unfold k2_pay2
  rw [shapeCast_self, shapeCast_self, shapeCast_self, addf_apply]
  simp only [matmul]
  rw [Ideal.matmul_constant_zero_apply,
    ← Equiv.sum_comp (contrEquiv1 dot_S1024x1024_S1024x1024_S1024x1024_1_1_0_0_n_n 1024 rfl rfl).symm]
  refine congrArg (v7 (ix2 p q) + ·) (Finset.sum_congr rfl fun k _ => ?_)
  rw [lhs_at, rhs_at]

/-- The last step at entry `(p, q)`: the accumulated value plus the bias row's entry `q`. -/
theorem pay_bias (v16 : Vec Ideal S1024x1024 .f32) (v17 : Vec Ideal S1x1024 .f32) (p q : Fin 1024) :
    k2_pay3 (F := Ideal) v16 v17 (ix2 p q) = v16 (ix2 p q) + v17 (ix2 (0 : Fin 1) q) := by
  unfold k2_pay3
  rw [shapeCast_self, addf_apply, broadcastTo_1b_ab_apply]

end Cert.KernelIdeal.Pay

end
-- ==== Proof.MatAcc.lean ====
/-
  The accumulator of the matrix-product region, entry by entry over the extended reals.  Grid point `t` works on
  row block `t / 16` of the left matrix, row block `(t / 4) mod 4` of the right matrix, and slice `k = t mod 4` of
  the contracted axis.  Its step adds, at entry `(p, q)` of the accumulator, the sum over the 1024 positions `j` of
  the slice of `x (1024·(t / 16) + p, 1024·k + j) · w (1024·((t / 4) mod 4) + q, 1024·k + j)`; the accumulator starts
  from zero where `k = 0`.  So after point `t` it holds the sum of those terms over the slices `0 … k`.
-/
import proofs.«134332_j23905787969796_2_alg».proof.Proof.MatPieces
import proofs.«134332_j23905787969796_2_alg».proof.Proof.PayMat

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

/-- Row `p` of the 1024-row block number `i mod 8` of an axis of extent 8192. -/
def at8 (i : ℕ) (p : Fin 1024) : Fin 8192 := ⟨i % 8 * 1024 + p.val, by have := p.isLt; omega⟩
/-- Place `j` of the 1024-wide stretch number `k mod 4` of an axis of extent 4096. -/
def at4 (k : ℕ) (j : Fin 1024) : Fin 4096 := ⟨k % 4 * 1024 + j.val, by have := j.isLt; omega⟩

/-- The block indices of the four windows at a grid point, in closed form. -/
theorem blockIdx : ∀ t : Fin cfg2.N,
    win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4 :=
  (by decide +kernel : ∀ t : Fin grid2.N, _)

section
variable (V : (c : Dev nD) → (b : Ref sig .tc) → Buf (Elt Ideal) ((c : Thread nD τ).loc b))

/-- The left matrix's block at point `t`, entry `(p, j)`: the matrix at row `1024·(t / 16) + p`, column `1024·(t mod 4) + j`. -/
theorem lhsBlock_at (c : Dev nD) (t : Fin cfg2.N) (p j : Fin 1024) :
    (iblk2 V c 0 t : Vec Ideal S1024x1024 .bf16) (ix2 p j) = V c main_v2 (ix2 (at8 (t.val / 16) p) (at4 t.val j)) := by
  have hN : t.val < 128 := lt_of_lt_of_eq t.isLt (show cfg2.N = 128 from N_2)
  obtain ⟨e0, e1, -⟩ := blockIdx t
  unfold iblk2
  rw [View.read_apply]
  show V c main_v2 (((cfg2.win 0).blk t).view.emb (ix2 p j)) = V c main_v2 _
  refine congrArg (V c main_v2) (funext fun a => Fin.ext ?_)
  match a with
  | ⟨0, _⟩ => show win2_0.index t (0 : Fin 2) * 1024 + 1 * p.val = t.val / 16 % 8 * 1024 + p.val; rw [e0]; omega
  | ⟨1, _⟩ => show win2_0.index t (1 : Fin 2) * 1024 + 1 * j.val = t.val % 4 * 1024 + j.val; rw [e1]; omega

/-- The right matrix's block at point `t`, entry `(q, j)`: the matrix at row `1024·((t / 4) mod 4) + q`, column `1024·(t mod 4) + j`. -/
theorem rhsBlock_at (c : Dev nD) (t : Fin cfg2.N) (q j : Fin 1024) :
    (iblk2 V c 1 t : Vec Ideal S1024x1024 .bf16) (ix2 q j) = V c main_v3 (ix2 (at4 (t.val / 4) q) (at4 t.val j)) := by
  obtain ⟨-, -, e0, e1, -⟩ := blockIdx t
  unfold iblk2
  rw [View.read_apply]
  show V c main_v3 (((cfg2.win 1).blk t).view.emb (ix2 q j)) = V c main_v3 _
  refine congrArg (V c main_v3) (funext fun a => Fin.ext ?_)
  match a with
  | ⟨0, _⟩ => show win2_1.index t (0 : Fin 2) * 1024 + 1 * q.val = t.val / 4 % 4 * 1024 + q.val; rw [e0]; omega
  | ⟨1, _⟩ => show win2_1.index t (1 : Fin 2) * 1024 + 1 * j.val = t.val % 4 * 1024 + j.val; rw [e1]; omega

/-- The bias row's block at point `t`, entry `(0, q)`: the row at column `1024·((t / 4) mod 4) + q`. -/
theorem biasBlock_at (c : Dev nD) (t : Fin cfg2.N) (q : Fin 1024) :
    (iblk2 V c 2 t : Vec Ideal S1x1024 .f32) (ix2 (0 : Fin 1) q) = V c main_v1 (ix2 (0 : Fin 1) (at4 (t.val / 4) q)) := by
  obtain ⟨-, -, -, -, e0, e1, -⟩ := blockIdx t
  unfold iblk2
  rw [View.read_apply]
  show V c main_v1 (((cfg2.win 2).blk t).view.emb (ix2 (0 : Fin 1) q)) = V c main_v1 _
  refine congrArg (V c main_v1) (funext fun a => Fin.ext ?_)
  match a with
  | ⟨0, _⟩ => show win2_2.index t (0 : Fin 2) * 1 + 1 * 0 = 0; rw [e0]
  | ⟨1, _⟩ => show win2_2.index t (1 : Fin 2) * 1024 + 1 * q.val = t.val / 4 % 4 * 1024 + q.val; rw [e1]; omega

/-- What one point adds at entry `(p, q)`: the products along slice `k` of the contracted axis, for row block `i` of the
    left matrix and row block `jj` of the right one. -/
def sliceTerm (X : Cert.Spec.SX.Idx → EReal) (W : Cert.Spec.SW.Idx → EReal) (i jj k : ℕ) (p q : Fin 1024) : EReal :=
  ∑ j : Fin 1024, X (ix2 (at8 i p) (at4 k j)) * W (ix2 (at4 jj q) (at4 k j))

/-- A point with `k = 0` leaves its own term. -/
theorem acc_reset (c : Dev nD) (t : Fin cfg2.N) (h0 : t.val % 4 = 0) (p q : Fin 1024) :
    acc2 (F := Ideal) V c t.val t.isLt (ix2 p q) = sliceTerm (V c main_v2) (V c main_v3) (t.val / 16) (t.val / 4) t.val p q := by
  refine (congrFun (acc2_A V c t h0) (ix2 p q)).trans ?_
  refine (congrFun (accA_eq V c t h0) (ix2 p q)).trans ?_
  refine (Pay.pay_acc (iblk2 V c 0 t) (iblk2 V c 1 t) (k2_pay1 (F := Ideal)) p q).trans ?_
  rw [Pay.pay_zero, zero_add]
  exact Finset.sum_congr rfl fun j _ => congrArg₂ (fun a b : EReal => a * b) (lhsBlock_at V c t p j) (rhsBlock_at V c t q j)

/-- A point with `k ≠ 0` adds its term to what the point before left. -/
theorem acc_add (c : Dev nD) (n : ℕ) (hn : n + 1 < cfg2.N) (h0 : ¬(n + 1) % 4 = 0) (p q : Fin 1024) :
    acc2 (F := Ideal) V c (n + 1) hn (ix2 p q)
      = acc2 (F := Ideal) V c n (Nat.lt_of_succ_lt hn) (ix2 p q) + sliceTerm (V c main_v2) (V c main_v3) ((n + 1) / 16) ((n + 1) / 4) (n + 1) p q := by
  by_cases h1 : (n + 1) % 4 = 3
  · refine (congrFun (acc2_C V c ⟨n + 1, hn⟩ h0 h1) (ix2 p q)).trans ?_
    refine (congrFun (accC_eq V c ⟨n + 1, hn⟩ h0 h1 (acc2 V c n (Nat.lt_of_succ_lt hn))) (ix2 p q)).trans ?_
    refine (Pay.pay_acc (iblk2 V c 0 ⟨n + 1, hn⟩) (iblk2 V c 1 ⟨n + 1, hn⟩) (acc2 V c n (Nat.lt_of_succ_lt hn)) p q).trans ?_
    exact congrArg (acc2 V c n (Nat.lt_of_succ_lt hn) (ix2 p q) + ·)
      (Finset.sum_congr rfl fun j _ => congrArg₂ (fun a b : EReal => a * b) (lhsBlock_at V c ⟨n + 1, hn⟩ p j) (rhsBlock_at V c ⟨n + 1, hn⟩ q j))
  · refine (congrFun (acc2_B V c ⟨n + 1, hn⟩ h0 h1) (ix2 p q)).trans ?_
    refine (congrFun (accB_eq V c ⟨n + 1, hn⟩ h0 h1 (acc2 V c n (Nat.lt_of_succ_lt hn))) (ix2 p q)).trans ?_
    refine (Pay.pay_acc (iblk2 V c 0 ⟨n + 1, hn⟩) (iblk2 V c 1 ⟨n + 1, hn⟩) (acc2 V c n (Nat.lt_of_succ_lt hn)) p q).trans ?_
    exact congrArg (acc2 V c n (Nat.lt_of_succ_lt hn) (ix2 p q) + ·)
      (Finset.sum_congr rfl fun j _ => congrArg₂ (fun a b : EReal => a * b) (lhsBlock_at V c ⟨n + 1, hn⟩ p j) (rhsBlock_at V c ⟨n + 1, hn⟩ q j))

/-- The slice term depends on the slice number only through its residue mod 4. -/
theorem sliceTerm_mod (X : Cert.Spec.SX.Idx → EReal) (W : Cert.Spec.SW.Idx → EReal) (i jj k k' : ℕ) (h : k % 4 = k' % 4) (p q : Fin 1024) :
    sliceTerm X W i jj k p q = sliceTerm X W i jj k' p q := by
  have e : ∀ j : Fin 1024, at4 k j = at4 k' j := fun j => Fin.ext (by show k % 4 * 1024 + j.val = k' % 4 * 1024 + j.val; rw [h])
  unfold sliceTerm
  exact Finset.sum_congr rfl fun j _ => by rw [e j]

/-- After point `n` the accumulator holds, at entry `(p, q)`, the sum of the terms of the slices `0 … n mod 4`. -/
theorem acc_eq (c : Dev nD) : ∀ (n : ℕ) (hn : n < cfg2.N) (p q : Fin 1024),
    acc2 (F := Ideal) V c n hn (ix2 p q) = ∑ s ∈ Finset.range (n % 4 + 1), sliceTerm (V c main_v2) (V c main_v3) (n / 16) (n / 4) s p q
  | 0, hn, p, q => by
    show acc2 (F := Ideal) V c 0 hn (ix2 p q) = ∑ s ∈ Finset.range 1, sliceTerm (V c main_v2) (V c main_v3) (0 / 16) (0 / 4) s p q
    rw [Finset.sum_range_one]
    exact acc_reset V c ⟨0, hn⟩ rfl p q
  | n + 1, hn, p, q => by
    by_cases h0 : (n + 1) % 4 = 0
    · rw [h0, Nat.zero_add, Finset.sum_range_one]
      refine (acc_reset V c ⟨n + 1, hn⟩ h0 p q).trans ?_
      exact sliceTerm_mod (V c main_v2) (V c main_v3) ((n + 1) / 16) ((n + 1) / 4) (n + 1) 0 (by omega) p q
    · rw [acc_add V c n hn h0 p q, acc_eq c n (Nat.lt_of_succ_lt hn) p q]
      have e1 : (n + 1) / 16 = n / 16 := by omega
      have e2 : (n + 1) / 4 = n / 4 := by omega
      have e3 : (n + 1) % 4 = n % 4 + 1 := by omega
      rw [e1, e2, e3, Finset.sum_range_succ _ (n % 4 + 1)]
      exact congrArg (_ + ·) (sliceTerm_mod (V c main_v2) (V c main_v3) (n / 16) (n / 4) (n + 1) (n % 4 + 1) (by omega) p q)

end

end Cert.KernelIdeal.Hand

end
-- ==== Proof.SumSplit.lean ====
/-
  A sum over 4096 positions, cut into 4 consecutive stretches of 1024: position `k · 1024 + j` is the `j`-th of stretch `k`.
  Sums of extended reals may be regrouped freely (addition there is commutative and associative), so no finiteness is needed.
-/
import Idealize.ShloMosaic.PureOps.Ideal

open scoped BigOperators

namespace Cert.Spec

/-- A position below 4096 is a stretch number below 4 and a place below 1024 in it. -/
def splitEquiv : Fin 4 × Fin 1024 ≃ Fin 4096 where
  toFun p := ⟨p.1.val * 1024 + p.2.val, by have := p.1.isLt; have := p.2.isLt; omega⟩
  invFun j := (⟨j.val / 1024, by have := j.isLt; omega⟩, ⟨j.val % 1024, Nat.mod_lt _ (by decide)⟩)
  left_inv p := by
    obtain ⟨⟨k, hk⟩, ⟨j, hj⟩⟩ := p
    refine Prod.ext (Fin.ext ?_) (Fin.ext ?_)
    · show (k * 1024 + j) / 1024 = k
      omega
    · show (k * 1024 + j) % 1024 = j
      omega
  right_inv j := by
    refine Fin.ext ?_
    show j.val / 1024 * 1024 + j.val % 1024 = j.val
    omega

theorem sum_split (f : Fin 4096 → EReal) :
    ∑ j : Fin 4096, f j
      = ∑ k : Fin 4, ∑ j : Fin 1024, f ⟨k.val * 1024 + j.val, by have := k.isLt; have := j.isLt; omega⟩ := by
  rw [← Equiv.sum_comp splitEquiv f, Fintype.sum_prod_type]
  rfl

end Cert.Spec
-- ==== Proof.MatArr.lean ====
/-
  From the blocks to the array.  The output block of the matrix-product region is written back exactly at the points
  with `k = 3`, where it holds the accumulated sum over all four slices of the contracted axis plus the bias row; a sum
  over the 4096 positions of that axis is the sum over its four slices of the sums over each slice's 1024 places.  The
  point `t` writes rows `1024·(t / 16) …` and columns `1024·((t / 4) mod 4) …`; entry `(r, n)` of the result lies in the
  block of the point `((r / 1024)·4 + n / 1024)·4 + 3`.  So the result array is `x · wᵀ + b`, entry by entry.
-/
import proofs.«134332_j23905787969796_2_alg».proof.Proof.MatAcc
import proofs.«134332_j23905787969796_2_alg».proof.Proof.SumSplit
import proofs.«134332_j23905787969796_2_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

/-- The product-plus-bias at entry `(r, n)`, with the contracted axis cut into its four slices. -/
theorem lin_at (X : Cert.Spec.SX.Idx → EReal) (W : Cert.Spec.SW.Idx → EReal) (b : Cert.Spec.SB.Idx → EReal)
    (r : Fin 8192) (n : Fin 4096) :
    Cert.Spec.lin X W b (ix2 r n)
      = (∑ s ∈ Finset.range 4, ∑ j : Fin 1024, X (ix2 r (at4 s j)) * W (ix2 n (at4 s j))) + b (ix1 n) := by
  show (∑ j : Fin 4096, X (ix2 r j) * W (ix2 n j)) + b (ix1 n) = _
  rw [Cert.Spec.sum_split, Finset.sum_range]
  refine congrArg (· + b (ix1 n)) (Finset.sum_congr rfl fun k _ => Finset.sum_congr rfl fun j _ => ?_)
  have e : (⟨k.val * 1024 + j.val, by have := k.isLt; have := j.isLt; omega⟩ : Fin 4096) = at4 k.val j :=
    Fin.ext (by show k.val * 1024 + j.val = k.val % 4 * 1024 + j.val; rw [Nat.mod_eq_of_lt k.isLt])
  rw [e]

section
variable (V : (c : Dev nD) → (b : Ref sig .tc) → Buf (Elt Ideal) ((c : Thread nD τ).loc b))

/-- The bias as a function of the column alone. -/
abbrev biasRow (c : Dev nD) : Cert.Spec.SB.Idx → EReal :=
  fun j => V c main_v1 (ix2 (0 : Fin 1) (⟨(j 0).val, (j 0).isLt⟩ : Fin 4096))

/-- The whole result, as one function of the three arrays the region reads. -/
abbrev result (c : Dev nD) : Cert.Spec.SX.Idx → EReal :=
  Cert.Spec.lin (V c main_v2) (V c main_v3) (biasRow V c)

/-- The output block after a point with `k = 3`, entry `(p, q)`: the result at row `1024·(t / 16) + p`, column
    `1024·((t / 4) mod 4) + q`. -/
theorem out_at (c : Dev nD) (t : Fin cfg2.N) (h3 : t.val % 4 = 3) (p q : Fin 1024) :
    outAt2 (F := Ideal) V c t (ix2 p q) = result V c (ix2 (at8 (t.val / 16) p) (at4 (t.val / 4) q)) := by
  have h0 : ¬t.val % 4 = 0 := by omega
  have hacc : k2_pay2 (iblk2 V c 0 t) (iblk2 V c 1 t) (acc2 V c (t.val - 1) (Nat.lt_of_le_of_lt (Nat.sub_le _ _) t.isLt))
      = acc2 V c t.val t.isLt :=
    ((acc2_C V c t h0 h3).trans (accC_eq V c t h0 h3 _)).symm
  refine (congrFun (outAt2_C V c t h0 h3) (ix2 p q)).trans ?_
  refine (congrFun (outC_eq V c t h0 h3 (acc2 V c (t.val - 1) (Nat.lt_of_le_of_lt (Nat.sub_le _ _) t.isLt))) (ix2 p q)).trans ?_
  refine (Pay.pay_bias (k2_pay2 (iblk2 V c 0 t) (iblk2 V c 1 t) (acc2 V c (t.val - 1) (Nat.lt_of_le_of_lt (Nat.sub_le _ _) t.isLt)))
    (iblk2 V c 2 t) p q).trans ?_
  refine Eq.trans ?_ (lin_at (V c main_v2) (V c main_v3) (biasRow V c) (at8 (t.val / 16) p) (at4 (t.val / 4) q)).symm
  refine congrArg₂ (· + ·) ?_ (biasBlock_at V c t q)
  refine (congrFun hacc (ix2 p q)).trans ?_
  refine (acc_eq V c t.val t.isLt p q).trans ?_
  rw [h3]
  rfl

/-- What a point with `k = 3` writes back is its block of the result. -/
theorem flushed_eq (c : Dev nD) (t : Fin cfg2.N) (hf : (cfg2.win 3).flush t = true) :
    (dat2 (F := Ideal) V c).flushed 3 t = ((cfg2.win 3).blk t).view.read (Elt Ideal) (result V c) := by
  have h3 : t.val % 4 = 3 := (flush2_3 t).mp hf
  have hN : t.val < 128 := lt_of_lt_of_eq t.isLt (show cfg2.N = 128 from N_2)
  obtain ⟨-, -, -, -, -, -, e0, e1⟩ := blockIdx t
  show (cfg2.win 3).cut (grid2.coords t) ((dat2 V c).after 3 t) = _
  rw [after2_3]
  funext j
  have hp : (j 0).val < 1024 := (j 0).isLt
  have hq : (j 1).val < 1024 := (j 1).isLt
  have e : (cfg2.win 3).xinj (grid2.coords t) j = ix2 (⟨(j 0).val, hp⟩ : Fin 1024) (⟨(j 1).val, hq⟩ : Fin 1024) :=
    funext fun a => by match a with | ⟨0, _⟩ => rfl | ⟨1, _⟩ => rfl
  rw [View.read_apply]
  show outAt2 (F := Ideal) V c t ((cfg2.win 3).xinj (grid2.coords t) j) = result V c (((cfg2.win 3).blk t).view.emb j)
  refine (congrArg (outAt2 (F := Ideal) V c t) e).trans ?_
  refine (out_at V c t h3 ⟨(j 0).val, hp⟩ ⟨(j 1).val, hq⟩).trans ?_
  refine congrArg (result V c) (funext fun a => Fin.ext ?_)
  match a with
  | ⟨0, _⟩ => show t.val / 16 % 8 * 1024 + (j 0).val = win2_3.index t (0 : Fin 2) * 1024 + 1 * (j 0).val; rw [e0]; omega
  | ⟨1, _⟩ => show t.val / 4 % 4 * 1024 + (j 1).val = win2_3.index t (1 : Fin 2) * 1024 + 1 * (j 1).val; rw [e1]; omega

/-- An entry of the array lies in point `t`'s block iff each coordinate lies in the block's range on its axis. -/
theorem mem_block (t : Fin cfg2.N) (i : Cert.Spec.SX.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v4).slice (win2_3.rect t)).set ↔ _
  rw [View.set_slice_whole, Rect.mem_set_unit]
  exact Iff.rfl

/-- Every entry of the result array is in the block of a point that writes its block back. -/
theorem covered (i : Cert.Spec.SX.Idx) :
    ∃ t : Fin cfg2.N, (cfg2.win 3).flush t = true ∧ i ∈ ((cfg2.win 3).blk t).view.set := by
  have hr : (i 0).val < 8192 := (i 0).isLt
  have hn : (i 1).val < 4096 := (i 1).isLt
  have hN : cfg2.N = 128 := N_2
  let t : Fin cfg2.N := ⟨((i 0).val / 1024 * 4 + (i 1).val / 1024) * 4 + 3, by rw [hN]; omega⟩
  have ht : t.val = ((i 0).val / 1024 * 4 + (i 1).val / 1024) * 4 + 3 := rfl
  obtain ⟨-, -, -, -, -, -, e0, e1⟩ := blockIdx t
  refine ⟨t, (flush2_3 t).mpr (by rw [ht]; omega), ?_⟩
  rw [mem_block]
  intro a
  match a with
  | ⟨0, _⟩ => show win2_3.index t (0 : Fin 2) * 1024 ≤ (i 0).val ∧ (i 0).val < win2_3.index t (0 : Fin 2) * 1024 + 1024; rw [e0, ht]; omega
  | ⟨1, _⟩ => show win2_3.index t (1 : Fin 2) * 1024 ≤ (i 1).val ∧ (i 1).val < win2_3.index t (1 : Fin 2) * 1024 + 1024; rw [e1, ht]; omega

/-- After the region the output array holds `x · wᵀ + b`. -/
theorem arr_out (c : Dev nD) :
    (dat2 (F := Ideal) V c).arrAt 3 cfg2.N
      = Cert.Spec.lin (V c main_v2) (V c main_v3) (fun j => V c main_v1 (ValueIdx.ix2 (0 : Fin 1) (⟨(j 0).val, (j 0).isLt⟩ : Fin 4096))) :=
  (dat2 (F := Ideal) V c).arrAt_eq_of_cover 3 (result V c) (flushed_eq V c) covered

end

end Cert.KernelIdeal.Hand

end
-- ==== Proof.FoldMax.lean ====
/-
  Folds of `max` over finite index sets of extended reals.

  `max` is commutative, associative and idempotent, so a fold of `max` from a start value `b` depends only on
  the SET of values folded: it is the least upper bound of `b` and those values.  Hence a fold over an index set
  `S` equals the fold over any family that covers `S` (every member of the family lies in `S`, every element of
  `S` is a member), and a fold over a set covered by a two-parameter family is the nested fold.
-/
import Mathlib.Data.Finset.Fold
import Mathlib.Data.EReal.Basic

namespace Cert.RefSide

variable {ι κ μ : Type*}

/-- A fold of `max` over `S` is the fold over a one-parameter family `e` covering `S`. -/
theorem fold_max_cover (S : Finset ι) (T : Finset κ) (b : EReal) (g : ι → EReal) (e : κ → ι)
    (hmem : ∀ k ∈ T, e k ∈ S) (hcov : ∀ i ∈ S, ∃ k ∈ T, e k = i) :
    S.fold max b g = T.fold max b (fun k => g (e k)) := by
  apply le_antisymm
  · refine (Finset.fold_max_le _).2 ⟨(Finset.le_fold_max _).2 (Or.inl le_rfl), fun i hi => ?_⟩
    obtain ⟨k, hk, rfl⟩ := hcov i hi
    exact (Finset.le_fold_max _).2 (Or.inr ⟨k, hk, le_rfl⟩)
  · refine (Finset.fold_max_le _).2 ⟨(Finset.le_fold_max _).2 (Or.inl le_rfl), fun k hk => ?_⟩
    exact (Finset.le_fold_max _).2 (Or.inr ⟨e k, hmem k hk, le_rfl⟩)

/-- A fold of `max` over `S` is the nested fold over a two-parameter family `e` covering `S`. -/
theorem fold_max_cover₂ (S : Finset ι) (T : Finset κ) (R : Finset μ) (b : EReal) (g : ι → EReal) (e : κ → μ → ι)
    (hmem : ∀ k ∈ T, ∀ m ∈ R, e k m ∈ S) (hcov : ∀ i ∈ S, ∃ k ∈ T, ∃ m ∈ R, e k m = i) :
    S.fold max b g = T.fold max b (fun k => R.fold max b (fun m => g (e k m))) := by
  apply le_antisymm
  · refine (Finset.fold_max_le _).2 ⟨(Finset.le_fold_max _).2 (Or.inl le_rfl), fun i hi => ?_⟩
    obtain ⟨k, hk, m, hm, rfl⟩ := hcov i hi
    exact (Finset.le_fold_max _).2 (Or.inr ⟨k, hk, (Finset.le_fold_max _).2 (Or.inr ⟨m, hm, le_rfl⟩)⟩)
  · refine (Finset.fold_max_le _).2 ⟨(Finset.le_fold_max _).2 (Or.inl le_rfl), fun k hk => ?_⟩
    refine (Finset.fold_max_le _).2 ⟨(Finset.le_fold_max _).2 (Or.inl le_rfl), fun m hm => ?_⟩
    exact (Finset.le_fold_max _).2 (Or.inr ⟨e k m, hmem k hk m hm, le_rfl⟩)

end Cert.RefSide
-- ==== Proof.Blocks.lean ====
/-
  An axis of extent 4096 cut into 32 blocks of 128: an entry is the entry `j % 128` of block `j / 128`.
-/
import proofs.«134332_j23905787969796_2_alg».proof.Proof.Spec

namespace Cert.RefSide

/-- The position of an entry inside its 128-block. -/
def lane (j : Fin 4096) : Fin 128 := ⟨j.val % 128, Nat.mod_lt _ (by decide)⟩

/-- Entry `j % 128` of block `j / 128` is entry `j`. -/
theorem col_blk_lane (j : Fin 4096) : Spec.col (Spec.blk j) (lane j) = j :=
  Fin.ext (by show j.val / 128 * 128 + j.val % 128 = j.val; omega)

end Cert.RefSide
-- ==== Proof.RefAct.lean ====
/-
  The reference's activation stage, read index by index: the largest magnitude of each 128-block of a row (a fold
  of `max` over the block), the block's scale, and each entry quantized at that scale and scaled back.
-/
import proofs.«134332_j23905787969796_2_alg».proof.Proof.Gen.ReferenceIdeal.Read
import proofs.«134332_j23905787969796_2_alg».proof.Proof.Spec
import proofs.«134332_j23905787969796_2_alg».proof.Proof.FoldMax
import proofs.«134332_j23905787969796_2_alg».proof.Proof.Blocks

noncomputable section

namespace Cert.RefSide

open Cert.ReferenceIdeal Cert.ReferenceIdeal.Gen Cert.ReferenceIdeal.Read Idealize.ShloMosaic Idealize.ShloMosaic.ValueIdx

abbrev X0 := (⟨S4x2048x4096, .f32⟩ : BufTy).Contents (Elt Ideal)

/-- Position `(r, kb, c)` of the blocked activation is position `(r, kb·128 + c)` of the flat one. -/
theorem idx_v1_ix3 (r : Fin 8192) (kb : Fin 32) (c : Fin 128) :
    idx_main_v1 (ix3 r kb c) = ix2 r (Spec.col kb c) := by
  funext a
  match a with
  | ⟨0, _⟩ => exact Fin.ext (by show ((r.val * 32 + kb.val) * 128 + c.val) / 4096 = r.val; have := kb.isLt; have := c.isLt; omega)
  | ⟨1, _⟩ => exact Fin.ext (by show ((r.val * 32 + kb.val) * 128 + c.val) % 4096 = kb.val * 128 + c.val; have := kb.isLt; have := c.isLt; omega)

/-- The indices of the blocked activation that the maximum over the last axis sends to `(r, kb)` are the
    `(r, kb, c)`. -/
theorem drop_d2_ix3 (r : Fin 8192) (kb : Fin 32) (c : Fin 128) :
    reducesTo_S8192x32x128_S8192x32_d2.drop (ix3 r kb c) = ix2 r kb := by
  funext b
  match b with
  | ⟨0, _⟩ => exact Fin.ext (Shape.ReducesTo.drop_apply_val_of_eq reducesTo_S8192x32x128_S8192x32_d2 (ix3 r kb c) 0 0)
  | ⟨1, _⟩ => exact Fin.ext (Shape.ReducesTo.drop_apply_val_of_eq reducesTo_S8192x32x128_S8192x32_d2 (ix3 r kb c) 1 1)

theorem of_drop_d2 (r : Fin 8192) (kb : Fin 32) (i : S8192x32x128.Idx)
    (hi : reducesTo_S8192x32x128_S8192x32_d2.drop i = ix2 r kb) : ∃ c : Fin 128, ix3 r kb c = i := by
  refine ⟨⟨(i 2).val, (i 2).isLt⟩, ?_⟩
  have h0 : (i 0).val = r.val := by
    rw [← Shape.ReducesTo.drop_apply_val_of_eq reducesTo_S8192x32x128_S8192x32_d2 i 0 0, hi]
  have h1 : (i 1).val = kb.val := by
    rw [← Shape.ReducesTo.drop_apply_val_of_eq reducesTo_S8192x32x128_S8192x32_d2 i 1 1, hi]
  funext a
  match a with
  | ⟨0, _⟩ => exact Fin.ext h0.symm
  | ⟨1, _⟩ => exact Fin.ext h1.symm
  | ⟨2, _⟩ => rfl

/-- The largest magnitude of a block, as the reference computes it. -/
theorem v3_eq (x0 : X0) (r : Fin 8192) (kb : Fin 32) :
    val_main_v3 (F := Ideal) x0 (ix2 r kb) = Spec.actMax (val_main_v0 (F := Ideal) x0) r kb := by
  unfold val_main_v3
  rw [Host.reduce_eq_fold]
  generalize hg : val_main_v2 (F := Ideal) x0 = g
  have hgc : ∀ c : Fin 128, g (ix3 r kb c) = Spec.absE (val_main_v0 (F := Ideal) x0 (ix2 r (Spec.col kb c))) := by
    intro c
    rw [← hg, val_main_v2_apply, val_main_v1_apply, idx_v1_ix3]
    rfl
  unfold Spec.actMax
  refine (fold_max_cover _ (Finset.univ : Finset (Fin 128)) _ g (fun c => ix3 r kb c) ?_ ?_).trans ?_
  · intro c _
    exact Finset.mem_filter.2 ⟨Finset.mem_univ _, drop_d2_ix3 r kb c⟩
  · intro i hi
    obtain ⟨c, hc⟩ := of_drop_d2 r kb i (Finset.mem_filter.1 hi).2
    exact ⟨c, Finset.mem_univ _, hc⟩
  · simp only [hgc]
    rfl

/-- The scale of a block, as the reference computes it. -/
theorem v7_eq (x0 : X0) (r : Fin 8192) (kb : Fin 32) :
    val_main_v7 (F := Ideal) x0 (ix2 r kb)
      = Spec.scaleOf (Spec.actMax (val_main_v0 (F := Ideal) x0) r kb) := by
  rw [val_main_v7_apply, val_main_v5_apply, v3_eq, val_main_v4_apply, val_main_cst_0_apply, val_main_v6_apply,
    val_main_cst_1_apply]
  rfl

/-- The two broadcasts of the scales back over a block read the block's scale. -/
theorem idx_v8_v9 (r : Fin 8192) (kb : Fin 32) (c : Fin 128) :
    idx_main_v8 (idx_main_v9 (ix3 r kb c)) = ix2 r kb := by
  funext a
  match a with
  | ⟨0, _⟩ => rfl
  | ⟨1, _⟩ => rfl

theorem idx_v26_v27 (r : Fin 8192) (kb : Fin 32) (c : Fin 128) :
    idx_main_v26 (idx_main_v27 (ix3 r kb c)) = ix2 r kb := by
  funext a
  match a with
  | ⟨0, _⟩ => rfl
  | ⟨1, _⟩ => rfl

/-- An entry of the blocked activation, quantized at its block's scale and scaled back. -/
theorem v28_eq (x0 : X0) (r : Fin 8192) (kb : Fin 32) (c : Fin 128) :
    val_main_v28 (F := Ideal) x0 (ix3 r kb c)
      = Spec.qd (val_main_v0 (F := Ideal) x0 (ix2 r (Spec.col kb c)))
          (Spec.scaleOf (Spec.actMax (val_main_v0 (F := Ideal) x0) r kb)) := by
  rw [val_main_v28_apply, val_main_v12_apply, val_main_call1_v4_apply, val_main_call1_v3_apply, val_main_cst_3_apply,
    val_main_call1_v2_apply, val_main_call1_v1_apply, val_main_call1_v0_apply, val_main_cst_2_apply,
    val_main_v11_apply, val_main_v10_apply, val_main_v1_apply, idx_v1_ix3, val_main_v9_apply, val_main_v8_apply,
    idx_v8_v9, val_main_v27_apply, val_main_v26_apply, idx_v26_v27, v7_eq]
  rfl

/-- Position `(r, j)` of the flat activation is position `(r, j / 128, j % 128)` of the blocked one. -/
theorem idx_v29_ix2 (r : Fin 8192) (j : Fin 4096) :
    idx_main_v29 (ix2 r j) = ix3 r (Spec.blk j) (lane j) := by
  funext a
  match a with
  | ⟨0, _⟩ => exact Fin.ext (by show (r.val * 4096 + j.val) / 4096 = r.val; have := j.isLt; omega)
  | ⟨1, _⟩ => exact Fin.ext (by show (r.val * 4096 + j.val) / 128 % 32 = j.val / 128; have := j.isLt; omega)
  | ⟨2, _⟩ => exact Fin.ext (by show (r.val * 4096 + j.val) % 128 = j.val % 128; omega)

/-- The reference's activation stage is the block-by-block quantization of the flat activation. -/
theorem act_eq (x0 : X0) : val_main_v29 (F := Ideal) x0 = Spec.xdq (val_main_v0 (F := Ideal) x0) := by
  funext i
  obtain ⟨r, j, rfl⟩ : ∃ (r : Fin 8192) (j : Fin 4096), i = ix2 r j := ⟨i 0, i 1, eq_ix2 i⟩
  rw [val_main_v29_apply, idx_v29_ix2, v28_eq, col_blk_lane]
  generalize val_main_v0 (F := Ideal) x0 = x
  rfl

end Cert.RefSide

end
-- ==== Proof.RefWeight.lean ====
/-
  The reference's weight stage, read index by index: the largest magnitude of each 128 × 128 tile (a fold of `max`
  over the tile, which is the nested fold over its rows and columns), the tile's scale, and each entry quantized at
  that scale and scaled back.
-/
import proofs.«134332_j23905787969796_2_alg».proof.Proof.Gen.ReferenceIdeal.Read
import proofs.«134332_j23905787969796_2_alg».proof.Proof.Spec
import proofs.«134332_j23905787969796_2_alg».proof.Proof.FoldMax
import proofs.«134332_j23905787969796_2_alg».proof.Proof.Blocks

noncomputable section

namespace Cert.RefSide

open Cert.ReferenceIdeal Cert.ReferenceIdeal.Gen Cert.ReferenceIdeal.Read Idealize.ShloMosaic Idealize.ShloMosaic.ValueIdx

abbrev X1 := (⟨S4096x4096, .f32⟩ : BufTy).Contents (Elt Ideal)

/-- Position `(nb, r, kb, c)` of the tiled weight is position `(nb·128 + r, kb·128 + c)` of the flat one. -/
theorem idx_v13_ix4 (nb : Fin 32) (r : Fin 128) (kb : Fin 32) (c : Fin 128) :
    idx_main_v13 (ix4 nb r kb c) = ix2 (Spec.col nb r) (Spec.col kb c) := by
  funext a
  match a with
  | ⟨0, _⟩ => exact Fin.ext (by show (((nb.val * 128 + r.val) * 32 + kb.val) * 128 + c.val) / 4096 = nb.val * 128 + r.val; have := kb.isLt; have := c.isLt; omega)
  | ⟨1, _⟩ => exact Fin.ext (by show (((nb.val * 128 + r.val) * 32 + kb.val) * 128 + c.val) % 4096 = kb.val * 128 + c.val; have := kb.isLt; have := c.isLt; omega)

/-- The indices of the tiled weight that the maximum over axes 1 and 3 sends to `(nb, kb)` are the `(nb, r, kb, c)`. -/
theorem drop_d13_ix4 (nb : Fin 32) (r : Fin 128) (kb : Fin 32) (c : Fin 128) :
    reducesTo_S32x128x32x128_S32x32_d1_3.drop (ix4 nb r kb c) = ix2 nb kb := by
  funext b
  match b with
  | ⟨0, _⟩ => exact Fin.ext (Shape.ReducesTo.drop_apply_val_of_eq reducesTo_S32x128x32x128_S32x32_d1_3 (ix4 nb r kb c) 0 0)
  | ⟨1, _⟩ => exact Fin.ext (Shape.ReducesTo.drop_apply_val_of_eq reducesTo_S32x128x32x128_S32x32_d1_3 (ix4 nb r kb c) 1 2)

theorem of_drop_d13 (nb kb : Fin 32) (i : S32x128x32x128.Idx)
    (hi : reducesTo_S32x128x32x128_S32x32_d1_3.drop i = ix2 nb kb) :
    ∃ (r : Fin 128) (c : Fin 128), ix4 nb r kb c = i := by
  refine ⟨⟨(i 1).val, (i 1).isLt⟩, ⟨(i 3).val, (i 3).isLt⟩, ?_⟩
  have h0 : (i 0).val = nb.val := by
    rw [← Shape.ReducesTo.drop_apply_val_of_eq reducesTo_S32x128x32x128_S32x32_d1_3 i 0 0, hi]
  have h2 : (i 2).val = kb.val := by
    rw [← Shape.ReducesTo.drop_apply_val_of_eq reducesTo_S32x128x32x128_S32x32_d1_3 i 1 2, hi]
  funext a
  match a with
  | ⟨0, _⟩ => exact Fin.ext h0.symm
  | ⟨1, _⟩ => rfl
  | ⟨2, _⟩ => exact Fin.ext h2.symm
  | ⟨3, _⟩ => rfl

/-- The largest magnitude of a tile, as the reference computes it. -/
theorem v15_eq (x1 : X1) (nb kb : Fin 32) :
    val_main_v15 (F := Ideal) x1 (ix2 nb kb) = Spec.wMax x1 nb kb := by
  unfold val_main_v15
  rw [Host.reduce_eq_fold]
  generalize hg : val_main_v14 (F := Ideal) x1 = g
  have hgc : ∀ (r : Fin 128) (c : Fin 128), g (ix4 nb r kb c) = Spec.absE (x1 (ix2 (Spec.col nb r) (Spec.col kb c))) := by
    intro r c
    rw [← hg, val_main_v14_apply, val_main_v13_apply, idx_v13_ix4]
    rfl
  unfold Spec.wMax
  refine (fold_max_cover₂ _ (Finset.univ : Finset (Fin 128)) (Finset.univ : Finset (Fin 128)) _ g
    (fun r c => ix4 nb r kb c) ?_ ?_).trans ?_
  · intro r _ c _
    exact Finset.mem_filter.2 ⟨Finset.mem_univ _, drop_d13_ix4 nb r kb c⟩
  · intro i hi
    obtain ⟨r, c, hc⟩ := of_drop_d13 nb kb i (Finset.mem_filter.1 hi).2
    exact ⟨r, Finset.mem_univ _, c, Finset.mem_univ _, hc⟩
  · simp only [hgc]
    rfl

/-- The scale of a tile, as the reference computes it. -/
theorem v19_eq (x1 : X1) (nb kb : Fin 32) :
    val_main_v19 (F := Ideal) x1 (ix2 nb kb) = Spec.scaleOf (Spec.wMax x1 nb kb) := by
  rw [val_main_v19_apply, val_main_v17_apply, v15_eq, val_main_v16_apply, val_main_cst_5_apply, val_main_v18_apply,
    val_main_cst_6_apply]
  rfl

/-- The two broadcasts of the scales back over a tile read the tile's scale. -/
theorem idx_v20_v21 (nb : Fin 32) (r : Fin 128) (kb : Fin 32) (c : Fin 128) :
    idx_main_v20 (idx_main_v21 (ix4 nb r kb c)) = ix2 nb kb := by
  funext a
  match a with
  | ⟨0, _⟩ => rfl
  | ⟨1, _⟩ => rfl

theorem idx_v31_v32 (nb : Fin 32) (r : Fin 128) (kb : Fin 32) (c : Fin 128) :
    idx_main_v31 (idx_main_v32 (ix4 nb r kb c)) = ix2 nb kb := by
  funext a
  match a with
  | ⟨0, _⟩ => rfl
  | ⟨1, _⟩ => rfl

/-- Flattening the tiled weight and tiling it again gives every position back. -/
theorem idx_v25_v30 (nb : Fin 32) (r : Fin 128) (kb : Fin 32) (c : Fin 128) :
    idx_main_v25 (idx_main_v30 (ix4 nb r kb c)) = ix4 nb r kb c := by
  funext a
  match a with
  | ⟨0, _⟩ => exact Fin.ext (by
      show ((((nb.val * 128 + r.val) * 32 + kb.val) * 128 + c.val) / 4096 * 4096
        + (((nb.val * 128 + r.val) * 32 + kb.val) * 128 + c.val) % 4096) / 524288 = nb.val
      have := r.isLt; have := kb.isLt; have := c.isLt; omega)
  | ⟨1, _⟩ => exact Fin.ext (by
      show ((((nb.val * 128 + r.val) * 32 + kb.val) * 128 + c.val) / 4096 * 4096
        + (((nb.val * 128 + r.val) * 32 + kb.val) * 128 + c.val) % 4096) / 4096 % 128 = r.val
      have := r.isLt; have := kb.isLt; have := c.isLt; omega)
  | ⟨2, _⟩ => exact Fin.ext (by
      show ((((nb.val * 128 + r.val) * 32 + kb.val) * 128 + c.val) / 4096 * 4096
        + (((nb.val * 128 + r.val) * 32 + kb.val) * 128 + c.val) % 4096) / 128 % 32 = kb.val
      have := r.isLt; have := kb.isLt; have := c.isLt; omega)
  | ⟨3, _⟩ => exact Fin.ext (by
      show ((((nb.val * 128 + r.val) * 32 + kb.val) * 128 + c.val) / 4096 * 4096
        + (((nb.val * 128 + r.val) * 32 + kb.val) * 128 + c.val) % 4096) % 128 = c.val
      have := r.isLt; have := kb.isLt; have := c.isLt; omega)

/-- An entry of the tiled weight, quantized at its tile's scale and scaled back. -/
theorem v33_eq (x1 : X1) (nb : Fin 32) (r : Fin 128) (kb : Fin 32) (c : Fin 128) :
    val_main_v33 (F := Ideal) x1 (ix4 nb r kb c)
      = Spec.qd (x1 (ix2 (Spec.col nb r) (Spec.col kb c))) (Spec.scaleOf (Spec.wMax x1 nb kb)) := by
  rw [val_main_v33_apply, val_main_v30_apply, val_main_v25_apply, idx_v25_v30, val_main_v24_apply,
    val_main_call3_v4_apply, val_main_call3_v3_apply, val_main_cst_8_apply,
    val_main_call3_v2_apply, val_main_call3_v1_apply, val_main_call3_v0_apply, val_main_cst_7_apply,
    val_main_v23_apply, val_main_v22_apply, val_main_v13_apply, idx_v13_ix4, val_main_v21_apply, val_main_v20_apply,
    idx_v20_v21, val_main_v32_apply, val_main_v31_apply, idx_v31_v32, v19_eq]
  rfl

/-- Position `(n, j)` of the flat weight is position `(n / 128, n % 128, j / 128, j % 128)` of the tiled one. -/
theorem idx_v34_ix2 (n j : Fin 4096) :
    idx_main_v34 (ix2 n j) = ix4 (Spec.blk n) (lane n) (Spec.blk j) (lane j) := by
  funext a
  match a with
  | ⟨0, _⟩ => exact Fin.ext (by show (n.val * 4096 + j.val) / 524288 = n.val / 128; have := j.isLt; omega)
  | ⟨1, _⟩ => exact Fin.ext (by show (n.val * 4096 + j.val) / 4096 % 128 = n.val % 128; have := j.isLt; omega)
  | ⟨2, _⟩ => exact Fin.ext (by show (n.val * 4096 + j.val) / 128 % 32 = j.val / 128; have := j.isLt; omega)
  | ⟨3, _⟩ => exact Fin.ext (by show (n.val * 4096 + j.val) % 128 = j.val % 128; omega)

/-- The reference's weight stage is the tile-by-tile quantization of the weight. -/
theorem weight_eq (x1 : X1) : val_main_v34 (F := Ideal) x1 = Spec.wdq x1 := by
  funext i
  obtain ⟨n, j, rfl⟩ : ∃ (n : Fin 4096) (j : Fin 4096), i = ix2 n j := ⟨i 0, i 1, eq_ix2 i⟩
  rw [val_main_v34_apply, idx_v34_ix2, v33_eq, col_blk_lane, col_blk_lane]
  rfl

end Cert.RefSide

end
-- ==== Proof.RefOut.lean ====
/-
  The reference's result before its last reshape: entry `(r, n)` is the sum over `k` of the quantized activation at
  `(r, k)` times the quantized weight at `(n, k)` (the weight is read through a transpose), plus the bias at `n`.
  With the activation and weight stages identified, this is the specification, entry by entry.
-/
import proofs.«134332_j23905787969796_2_alg».proof.Proof.Gen.ReferenceIdeal.Read
import proofs.«134332_j23905787969796_2_alg».proof.Proof.Spec
import proofs.«134332_j23905787969796_2_alg».proof.Proof.RefAct
import proofs.«134332_j23905787969796_2_alg».proof.Proof.RefWeight

noncomputable section

namespace Cert.RefSide

open Cert.ReferenceIdeal Cert.ReferenceIdeal.Gen Cert.ReferenceIdeal.Read Idealize.ShloMosaic Idealize.ShloMosaic.ValueIdx

/-- The contraction reads the activation along row `r`. -/
theorem lidx_v36_ix2 (r : Fin 8192) (n : Fin 4096) (k : Fin 4096) :
    lidx_main_v36 (ix2 r n) k = ix2 r k := by
  funext a
  match a with
  | ⟨0, _⟩ => rfl
  | ⟨1, _⟩ => rfl

/-- Through the transpose, the contraction reads the weight along row `n`. -/
theorem idx_v35_ridx (r : Fin 8192) (n : Fin 4096) (k : Fin 4096) :
    idx_main_v35 (ridx_main_v36 (ix2 r n) k) = ix2 n k := by
  funext a
  match a with
  | ⟨0, _⟩ => rfl
  | ⟨1, _⟩ => rfl

/-- The two broadcasts of the bias read it at the column. -/
theorem idx_v37_v38 (r : Fin 8192) (n : Fin 4096) :
    idx_main_v37 (idx_main_v38 (ix2 r n)) = ix1 n := by
  funext a
  match a with
  | ⟨0, _⟩ => rfl

/-- The reference's result before its last reshape is the specification applied to the flat activation. -/
theorem ref_eq (x0 : (⟨Cert.ReferenceIdeal.S4x2048x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal)) :
    Cert.ReferenceIdeal.Read.val_main_v39 (F := Ideal) x0 x1 x2
      = Cert.Spec.out (Cert.ReferenceIdeal.Read.val_main_v0 (F := Ideal) x0) x1 x2 := by
  funext i
  obtain ⟨r, n, rfl⟩ : ∃ (r : Fin 8192) (n : Fin 4096), i = ix2 r n := ⟨i 0, i 1, eq_ix2 i⟩
  rw [val_main_v39_apply, val_main_v36_apply, val_main_v38_apply, val_main_v37_apply, idx_v37_v38]
  simp only [lidx_v36_ix2, val_main_v35_apply, idx_v35_ridx]
  rw [act_eq, weight_eq]
  generalize val_main_v0 (F := Ideal) x0 = x
  unfold Spec.out Spec.lin
  generalize Spec.xdq x = xq
  generalize Spec.wdq x1 = wq
  rfl

end Cert.RefSide

end
-- ==== Proof.lean ====
/-
  The proof of `Cert.Claim`.

  Both programs compute, at the ideal instance, the last reshape of `x̂ · ŵᵀ + b`: the activation (reshaped to
  [8192, 4096]) and the weight are quantized block by block — an entry `a` of a block of largest magnitude `mx`
  becomes `min 127 (max (−128) (round (a / s))) · s` with `s = max (mx / 127) ε`; a block is 128 consecutive entries of
  a row for the activation and a 128 × 128 tile for the weight — and entry `(r, n)` of the result is the sum over
  `j < 4096` of `x̂ (r, j) · ŵ (n, j)`, plus `b n`.  The kernel does this in three pipelined regions (two quantize
  passes, then a matrix product accumulated over four 1024-wide slices of `j` in a buffer kept from one grid point to
  the next); the reference in one straight line of host operations.  The two agree because a maximum over a tile is
  the maximum over its rows of the rows' maxima, and a sum over 4096 terms is the sum of its four slices' sums; no
  law used needs finiteness, so the precondition is never opened.

  The frames of the two kernel programs are one run each of the program's five segments (Proof/RunK.lean,
  Proof/RunKI.lean); the reference's is its run with the result dropped; the idealization rewrote nothing, so
  `preserves` is trivial.
-/
import proofs.«134332_j23905787969796_2_alg».proof.Defs
import proofs.«134332_j23905787969796_2_alg».proof.Proof.Gen.Kernel
import proofs.«134332_j23905787969796_2_alg».proof.Proof.Gen.KernelIdeal
import proofs.«134332_j23905787969796_2_alg».proof.Proof.Gen.ReferenceIdeal
import proofs.«134332_j23905787969796_2_alg».proof.Proof.Gen.Pre_finite_inputs
import proofs.«134332_j23905787969796_2_alg».proof.Proof.Gen.ReferenceIdeal.Run
import proofs.«134332_j23905787969796_2_alg».proof.Proof.Gen.ReferenceIdeal.Read
import proofs.«134332_j23905787969796_2_alg».proof.Proof.RunK
import proofs.«134332_j23905787969796_2_alg».proof.Proof.RunKI
import proofs.«134332_j23905787969796_2_alg».proof.Proof.ValKI
import proofs.«134332_j23905787969796_2_alg».proof.Proof.ArrAct
import proofs.«134332_j23905787969796_2_alg».proof.Proof.ArrWeight
import proofs.«134332_j23905787969796_2_alg».proof.Proof.MatArr
import proofs.«134332_j23905787969796_2_alg».proof.Proof.RefOut
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- What the three regions leave in their output arrays. -/
theorem region_values : Cert.KernelIdeal.Hand.RegionValues :=
  ⟨Cert.KernelIdeal.Hand.arr_act, Cert.KernelIdeal.Hand.arr_weight, Cert.KernelIdeal.Hand.arr_out⟩

/-- At the ideal instance the kernel's result array and the reference's end at the same function of arguments that
    agree. -/
theorem algebraic : Cert.algebraic_KernelIdeal_ReferenceIdeal := by
  intro m ρ m' ρ' _ hagree
  refine ⟨_, Cert.KernelIdeal.Hand.run_value m ρ region_values, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq]
  unfold Cert.ReferenceIdeal.Read.val_main_v40
  rw [Cert.RefSide.ref_eq]
  unfold Cert.ReferenceIdeal.Read.val_main_v0
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
